-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x128 : Shape := ⟨3, ![1, 16384, 128]⟩
abbrev S_ : Shape := ⟨0, ![]⟩

class Facts : Prop where
  bcast_S_S1x16384x128 : S_.BroadcastsInDim S1x16384x128 (![] : Fin 0 → Fin S1x16384x128.rank)
  reducesTo_S1x16384x128_S_d0_1_2 : S1x16384x128.ReducesTo [0, 1, 2] S_
  h_S_ : 0 < S_.numel

variable [Facts]

def fn {F : FTy → Type} [FloatOps F] (main_arg0 : FVec F S1x16384x128 .f32) (main_arg1 : FVec F S1x16384x128 .f32) : IVec S_ 1 :=
  let main_v0 : FVec F S1x16384x128 .f32 := Host.absf main_arg0
  let main_cst : FVec F S_ .f32 := constant S_ .f32 0x7F800000#32
  let main_v1 : FVec F S1x16384x128 .f32 := broadcastInDim S1x16384x128 ![] bcast_S_S1x16384x128 main_cst
  let main_v2 : IVec S1x16384x128 1 := cmpf .olt main_v0 main_v1
  let main_c : IVec S_ 1 := constantI S_ 1 1#1
  let main_v3 : IVec S_ 1 := (fun x v => Host.reduce IntOp.andi x v reducesTo_S1x16384x128_S_d0_1_2 h_S_) main_v2 main_c
  let main_v4 : FVec F S1x16384x128 .f32 := Host.absf main_arg1
  let main_cst_0 : FVec F S_ .f32 := constant S_ .f32 0x7F800000#32
  let main_v5 : FVec F S1x16384x128 .f32 := broadcastInDim S1x16384x128 ![] bcast_S_S1x16384x128 main_cst_0
  let main_v6 : IVec S1x16384x128 1 := cmpf .olt main_v4 main_v5
  let main_c_1 : IVec S_ 1 := constantI S_ 1 1#1
  let main_v7 : IVec S_ 1 := (fun x v => Host.reduce IntOp.andi x v reducesTo_S1x16384x128_S_d0_1_2 h_S_) main_v6 main_c_1
  let main_v8 : IVec S_ 1 := andi main_v3 main_v7
  main_v8
-- ==== Kernel.lean ====
abbrev S1x16384x128 : Shape := ⟨3, ![1, 16384, 128]⟩
abbrev S16384x128 : Shape := ⟨2, ![16384, 128]⟩
abbrev S1x16384 : Shape := ⟨2, ![1, 16384]⟩
abbrev S8x1x16384 : Shape := ⟨3, ![8, 1, 16384]⟩
abbrev S2048x128 : Shape := ⟨2, ![2048, 128]⟩
abbrev S1024x128 : Shape := ⟨2, ![1024, 128]⟩
abbrev S1x2048 : Shape := ⟨2, ![1, 2048]⟩
abbrev S1x1x1024 : Shape := ⟨3, ![1, 1, 1024]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1024x2048 : Shape := ⟨2, ![1024, 2048]⟩
abbrev S1x1024 : Shape := ⟨2, ![1, 1024]⟩
abbrev S16384 : Shape := ⟨1, ![16384]⟩
abbrev S8x16384 : Shape := ⟨2, ![8, 16384]⟩
abbrev S_ : Shape := ⟨0, ![]⟩

abbrev nBuf : Space → Nat
  | .hbm => 19
  | .vmem => 11
  | .smem => 0
  | _ => 0

abbrev bufTy : (tb : Table) → Fin (tcTables nBuf tb) → BufTy
  | .hbm, ⟨0, _⟩ => ⟨S1x16384x128, .f32⟩
  | .hbm, ⟨1, _⟩ => ⟨S1x16384x128, .f32⟩
  | .hbm, ⟨2, _⟩ => ⟨S16384x128, .f32⟩
  | .hbm, ⟨3, _⟩ => ⟨S16384x128, .f32⟩
  | .hbm, ⟨4, _⟩ => ⟨S1x16384, .f32⟩
  | .hbm, ⟨5, _⟩ => ⟨S8x1x16384, .f32⟩
  | .hbm, ⟨6, _⟩ => ⟨S16384, .f32⟩
  | .hbm, ⟨7, _⟩ => ⟨S8x16384, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S1024x128, .f32⟩
  | .local _ .vmem, ⟨3, _⟩ => ⟨S1024x128, .f32⟩
  | .local _ .vmem, ⟨4, _⟩ => ⟨S1x2048, .f32⟩
  | .local _ .vmem, ⟨5, _⟩ => ⟨S1x2048, .f32⟩
  | .local _ .vmem, ⟨6, _⟩ => ⟨S1x1x1024, .f32⟩
  | .local _ .vmem, ⟨7, _⟩ => ⟨S1x1x1024, .f32⟩
  | .local _ .vmem, ⟨8, _⟩ => ⟨S1x2048, .f32⟩
  | .local _ .vmem, ⟨9, _⟩ => ⟨S1x2048, .f32⟩
  | .local _ .vmem, ⟨10, _⟩ => ⟨S2048x128, .bf16⟩
  | _, _ => ⟨S1x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x16384x128_S16384x128 : S1x16384x128.ShapeCasts S16384x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  packedbf16_S2048x128_S2048x128_0_0 : (Rect.unit (s := S2048x128) ![0, 0] S2048x128.size inb_S2048x128_S2048x128_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  broadcasts_S1024x1_S1024x2048 : S1024x1.Broadcasts S1024x2048
  broadcasts_S1x2048_S1024x2048 : S1x2048.Broadcasts S1024x2048
  reduces_S1024x2048_S2048 : S1024x2048.Reduces [0] S2048
  shapeCasts_S2048_S1x2048 : S2048.ShapeCasts S1x2048
  reduces_S1024x2048_S1024 : S1024x2048.Reduces [1] S1024
  transposes_S1024x1_p1_0_S1x1024 : S1024x1.Transposes [1, 0] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x16384_S16384 : S1x16384.ShapeCasts S16384
  shapeCasts_S8x1x16384_S8x16384 : S8x1x16384.ShapeCasts S8x16384
  reducesTo_S8x16384_S16384_d0 : S8x16384.ReducesTo [0] S16384
  h_S_ : 0 < S_.numel
  reducesTo_S16384_S_d0 : S16384.ReducesTo [0] S_
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x16384.size a
  hwx0_3 : ∀ i : grid0.Coords, EltTy.bits .f32 = 32 ∨ (Rect.block (s := S8x1x16384) S1x1x1024.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S1x16384x128 : Shape := ⟨3, ![1, 16384, 128]⟩
abbrev S_ : Shape := ⟨0, ![]⟩
abbrev S1x16384 : Shape := ⟨2, ![1, 16384]⟩
abbrev S1x16384x16384 : Shape := ⟨3, ![1, 16384, 16384]⟩
abbrev S1x16384x1 : Shape := ⟨3, ![1, 16384, 1]⟩
abbrev S1x1x16384 : Shape := ⟨3, ![1, 1, 16384]⟩

abbrev nBuf : Space → Nat
  | .hbm => 31
  | .vmem => 0
  | .smem => 0
  | _ => 0

abbrev bufTy : (tb : Table) → Fin (tcTables nBuf tb) → BufTy
  | .hbm, ⟨0, _⟩ => ⟨S1x16384x128, .f32⟩
  | .hbm, ⟨1, _⟩ => ⟨S1x16384x128, .f32⟩
  | .hbm, ⟨2, _⟩ => ⟨S1x16384x128, .f32⟩
  | .hbm, ⟨3, _⟩ => ⟨S_, .f32⟩
  | .hbm, ⟨4, _⟩ => ⟨S1x16384, .f32⟩
  | .hbm, ⟨5, _⟩ => ⟨S1x16384x128, .f32⟩
  | .hbm, ⟨6, _⟩ => ⟨S_, .f32⟩
  | .hbm, ⟨7, _⟩ => ⟨S1x16384, .f32⟩
  | .hbm, ⟨8, _⟩ => ⟨S1x16384x16384, .f32⟩
  | .hbm, ⟨9, _⟩ => ⟨S1x16384x1, .f32⟩
  | .hbm, ⟨10, _⟩ => ⟨S1x1x16384, .f32⟩
  | .hbm, ⟨11, _⟩ => ⟨S1x16384x16384, .f32⟩
  | .hbm, ⟨12, _⟩ => ⟨S1x16384x16384, .f32⟩
  | .hbm, ⟨13, _⟩ => ⟨S1x16384x16384, .f32⟩
  | .hbm, ⟨14, _⟩ => ⟨S_, .f32⟩
  | .hbm, ⟨15, _⟩ => ⟨S1x16384x16384, .f32⟩
  | .hbm, ⟨16, _⟩ => ⟨S1x16384x16384, .f32⟩
  | .hbm, ⟨17, _⟩ => ⟨S1x16384x16384, .f32⟩
  | .hbm, ⟨18, _⟩ => ⟨S_, .f32⟩
  | .hbm, ⟨19, _⟩ => ⟨S1x16384, .f32⟩
  | .hbm, ⟨20, _⟩ => ⟨S_, .f32⟩
  | .hbm, ⟨21, _⟩ => ⟨S1x16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S1x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S1x16384x128_S1x16384_d2 : S1x16384x128.ReducesTo [2] S1x16384
  h_S_ : 0 < S_.numel
  bcast_S1x16384_S1x16384x1_0_1 : S1x16384.BroadcastsInDim S1x16384x1 (![0, 1] : Fin 2 → Fin S1x16384x1.rank)
  bcast_S1x16384_S1x1x16384_0_2 : S1x16384.BroadcastsInDim S1x1x16384 (![0, 2] : Fin 2 → Fin S1x1x16384.rank)
  bcast_S1x16384x1_S1x16384x16384_0_1_2 : S1x16384x1.BroadcastsInDim S1x16384x16384 (![0, 1, 2] : Fin 3 → Fin S1x16384x16384.rank)
  bcast_S1x1x16384_S1x16384x16384_0_1_2 : S1x1x16384.BroadcastsInDim S1x16384x16384 (![0, 1, 2] : Fin 3 → Fin S1x16384x16384.rank)
  bcast_S_S1x16384x16384 : S_.BroadcastsInDim S1x16384x16384 (![] : Fin 0 → Fin S1x16384x16384.rank)
  reducesTo_S1x16384x16384_S1x16384_d2 : S1x16384x16384.ReducesTo [2] S1x16384
  reducesTo_S1x16384x16384_S1x16384_d1 : S1x16384x16384.ReducesTo [1] S1x16384
  reducesTo_S1x16384_S_d0_1 : S1x16384.ReducesTo [0, 1] S_
  dot_S1x16384x128_S1x16384x128_S1x16384x16384_2_2_1_1_0_0_wf : DotDims.WF S1x16384x128 S1x16384x128 S1x16384x16384 [2] [2] [1] [1] [0] [0]

variable [Facts₀]

def dot_S1x16384x128_S1x16384x128_S1x16384x16384_2_2_1_1_0_0 : DotDims S1x16384x128 S1x16384x128 S1x16384x16384 where
  lhsContracting := [2]
  rhsContracting := [2]
  lhsNonContracting := [1]
  rhsNonContracting := [1]
  lhsBatch := [0]
  rhsBatch := [0]
  wf := dot_S1x16384x128_S1x16384x128_S1x16384x16384_2_2_1_1_0_0_wf

class Facts : Prop extends Facts₀ where

variable [Facts]
-- ==== Proof.KernelPieces.lean ====
/-
  What each control case of the body leaves behind, as pure terms of what it loaded.

  The body has three control cases along the key-tile coordinate `j`: the first key tile (`j = 0`), where
  the running minimum is reset to `+∞` and the query tile's squared norms and its copy are stored; the
  last key tile (`j = 15`), where the running minimum is also copied to the first output; and the tiles
  between.  In every case the running minimum ends as `min` of what it held with this tile's column
  minima of the distance tile, and the second output's block is this tile's row minima.  With `q` the
  query block, `k` the key block, and `acc`, `a2`, `qc` the three carried buffers as the point before
  left them:

    first tile :  acc' = colmin-step k (copy q) (norms q) (+∞),   a2' = norms q,   qc' = copy q,
                  out2 = rowmin k (copy q) (norms q)
    other tiles:  acc' = colmin-step k qc a2 acc,   out2 = rowmin k qc a2   (a2, qc kept)
    last tile  :  the same, and out1 = acc'.
-/
import proofs.«129263_j59055800320002_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first key tile -/

/-- The running minimum after the first key tile: reset to `+∞`, then one step with this tile. -/
theorem sout0_A_0_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x2048 .f32) (harg4 : arg4.IsWhole) (arg5 : Memref sig .tc .vmem S1x1x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (hc0 : cond0_0 i) (hc1 : ¬cond0_1 i)
    (x0 : Vec F S2048x128 .f32) (x1 : Vec F S1024x128 .f32) :
    sout0_A_0 c i arg2 harg2 arg3 harg3 arg4 harg4 arg5 harg5 arg6 harg6 arg7 harg7 arg8 harg8 hc0 hc1 x0 x1 = k0_pay6 x1 (k0_pay4 x0) (k0_pay3 x0) (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x2048) hz2]
  simp only [View.readCov_unit_zero (S := S1x2048) _ hz2, View.readCov_unit_zero (S := S2048x128) _ hz2,
    View.readAt_eq_ld, harg2.read_unread, harg3.read_unread, harg6.read_unread, harg7.read_unread, harg8.read_unread,
    View.ld_unit_zero (S := S1x2048) hz2, View.ld_unit_zero (S := S2048x128) hz2, View.ld_unit_zero (S := S1024x128) hz2]

/-- The query tile's squared norms, stored as a row. -/
theorem sout0_A_1_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x2048 .f32) (harg4 : arg4.IsWhole) (arg5 : Memref sig .tc .vmem S1x1x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (hc0 : cond0_0 i) (hc1 : ¬cond0_1 i)
    (x0 : Vec F S2048x128 .f32) (x1 : Vec F S1024x128 .f32) :
    sout0_A_1 c i arg2 harg2 arg3 harg3 arg4 harg4 arg5 harg5 arg6 harg6 arg7 harg7 arg8 harg8 hc0 hc1 x0 x1 = k0_pay3 x0 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_unit_zero (S := S1x2048) hz2]
  simp only [View.readCov_unit_zero (S := S1x2048) _ hz2, View.readCov_unit_zero (S := S2048x128) _ hz2,
    View.readAt_eq_ld, harg2.read_unread, harg3.read_unread, harg6.read_unread, harg7.read_unread, harg8.read_unread,
    View.ld_unit_zero (S := S1x2048) hz2, View.ld_unit_zero (S := S2048x128) hz2, View.ld_unit_zero (S := S1024x128) hz2]

/-- The query tile's stored copy. -/
theorem sout0_A_2_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x2048 .f32) (harg4 : arg4.IsWhole) (arg5 : Memref sig .tc .vmem S1x1x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (hc0 : cond0_0 i) (hc1 : ¬cond0_1 i)
    (x0 : Vec F S2048x128 .f32) (x1 : Vec F S1024x128 .f32) :
    sout0_A_2 c i arg2 harg2 arg3 harg3 arg4 harg4 arg5 harg5 arg6 harg6 arg7 harg7 arg8 harg8 hc0 hc1 x0 x1 = k0_pay4 x0 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_unit_zero (S := S2048x128) hz2]
  simp only [View.readCov_unit_zero (S := S1x2048) _ hz2, View.readCov_unit_zero (S := S2048x128) _ hz2,
    View.readAt_eq_ld, harg2.read_unread, harg3.read_unread, harg6.read_unread, harg7.read_unread, harg8.read_unread,
    View.ld_unit_zero (S := S1x2048) hz2, View.ld_unit_zero (S := S2048x128) hz2, View.ld_unit_zero (S := S1024x128) hz2]

/-- The second output's block at the first key tile: this tile's row minima. -/
theorem out0_A_3_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x2048 .f32) (harg4 : arg4.IsWhole) (arg5 : Memref sig .tc .vmem S1x1x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (hc0 : cond0_0 i) (hc1 : ¬cond0_1 i)
    (x0 : Vec F S2048x128 .f32) (x1 : Vec F S1024x128 .f32) :
    out0_A_3 c i arg2 harg2 arg3 harg3 arg4 harg4 arg5 harg5 arg6 harg6 arg7 harg7 arg8 harg8 hc0 hc1 x0 x1 = k0_pay7 x1 (k0_pay4 x0) (k0_pay3 x0) := by
  unfold out0_A_3
  rw [View.read_writes_eq_canon _ _ _ (cover0_A_3 c i arg2 harg2 arg3 harg3 arg4 harg4 arg5 harg5 arg6 harg6 arg7 harg7 arg8 harg8 hc0 hc1 x0 x1)]
  unfold kernelRun0_A
  dsimp only
  sl_unfold_words
  rw [View.canon_unit_zero (S := S1x1x1024) hz3]
  simp only [View.readCov_unit_zero (S := S1x2048) _ hz2, View.readCov_unit_zero (S := S2048x128) _ hz2,
    View.readAt_eq_ld, harg2.read_unread, harg3.read_unread, harg6.read_unread, harg7.read_unread, harg8.read_unread,
    View.ld_unit_zero (S := S1x2048) hz2, View.ld_unit_zero (S := S2048x128) hz2, View.ld_unit_zero (S := S1024x128) hz2]

/-! ## The key tiles between -/

/-- The running minimum after a middle key tile: one step from what the point before left. -/
theorem sout0_B_0_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x2048 .f32) (harg4 : arg4.IsWhole) (arg5 : Memref sig .tc .vmem S1x1x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (hc0 : ¬cond0_0 i) (hc1 : ¬cond0_1 i)
    (x0 : Vec F S2048x128 .f32) (x1 : Vec F S1024x128 .f32) (xs0 : Vec F S1x2048 .f32) (xs1 : Vec F S1x2048 .f32) (xs2 : Vec F S2048x128 .bf16) :
    sout0_B_0 c i arg2 harg2 arg3 harg3 arg4 harg4 arg5 harg5 arg6 harg6 arg7 harg7 arg8 harg8 hc0 hc1 x0 x1 xs0 xs1 xs2 = k0_pay6 x1 xs2 xs1 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero (S := S1x2048) hz2]
  simp only [View.readCov_unit_zero (S := S1x2048) _ hz2, View.readCov_unit_zero (S := S2048x128) _ hz2,
    View.readAt_eq_ld, harg2.read_unread, harg3.read_unread, harg6.read_unread, harg7.read_unread, harg8.read_unread,
    View.ld_unit_zero (S := S1x2048) hz2, View.ld_unit_zero (S := S2048x128) hz2, View.ld_unit_zero (S := S1024x128) hz2]

/-- The second output's block at a middle key tile. -/
theorem out0_B_3_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x2048 .f32) (harg4 : arg4.IsWhole) (arg5 : Memref sig .tc .vmem S1x1x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (hc0 : ¬cond0_0 i) (hc1 : ¬cond0_1 i)
    (x0 : Vec F S2048x128 .f32) (x1 : Vec F S1024x128 .f32) (xs0 : Vec F S1x2048 .f32) (xs1 : Vec F S1x2048 .f32) (xs2 : Vec F S2048x128 .bf16) :
    out0_B_3 c i arg2 harg2 arg3 harg3 arg4 harg4 arg5 harg5 arg6 harg6 arg7 harg7 arg8 harg8 hc0 hc1 x0 x1 xs0 xs1 xs2 = k0_pay7 x1 xs2 xs1 := by
  unfold out0_B_3
  rw [View.read_writes_eq_canon _ _ _ (cover0_B_3 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero (S := S1x1x1024) hz3]
  simp only [View.readCov_unit_zero (S := S1x2048) _ hz2, View.readCov_unit_zero (S := S2048x128) _ hz2,
    View.readAt_eq_ld, harg2.read_unread, harg3.read_unread, harg6.read_unread, harg7.read_unread, harg8.read_unread,
    View.ld_unit_zero (S := S1x2048) hz2, View.ld_unit_zero (S := S2048x128) hz2, View.ld_unit_zero (S := S1024x128) hz2]

/-! ## The last key tile -/

/-- The running minimum after the last key tile. -/
theorem sout0_C_0_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x2048 .f32) (harg4 : arg4.IsWhole) (arg5 : Memref sig .tc .vmem S1x1x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (hc0 : ¬cond0_0 i) (hc1 : cond0_1 i)
    (x0 : Vec F S2048x128 .f32) (x1 : Vec F S1024x128 .f32) (xs0 : Vec F S1x2048 .f32) (xs1 : Vec F S1x2048 .f32) (xs2 : Vec F S2048x128 .bf16) :
    sout0_C_0 c i arg2 harg2 arg3 harg3 arg4 harg4 arg5 harg5 arg6 harg6 arg7 harg7 arg8 harg8 hc0 hc1 x0 x1 xs0 xs1 xs2 = k0_pay6 x1 xs2 xs1 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero (S := S1x2048) hz2]
  simp only [View.readCov_unit_zero (S := S1x2048) _ hz2, View.readCov_unit_zero (S := S2048x128) _ hz2,
    View.readAt_eq_ld, harg2.read_unread, harg3.read_unread, harg6.read_unread, harg7.read_unread, harg8.read_unread,
    View.ld_unit_zero (S := S1x2048) hz2, View.ld_unit_zero (S := S2048x128) hz2, View.ld_unit_zero (S := S1024x128) hz2]

/-- The first output's block, written at the last key tile: the running minimum just stored. -/
theorem out0_C_2_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x2048 .f32) (harg4 : arg4.IsWhole) (arg5 : Memref sig .tc .vmem S1x1x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (hc0 : ¬cond0_0 i) (hc1 : cond0_1 i)
    (x0 : Vec F S2048x128 .f32) (x1 : Vec F S1024x128 .f32) (xs0 : Vec F S1x2048 .f32) (xs1 : Vec F S1x2048 .f32) (xs2 : Vec F S2048x128 .bf16) :
    out0_C_2 c i arg2 harg2 arg3 harg3 arg4 harg4 arg5 harg5 arg6 harg6 arg7 harg7 arg8 harg8 hc0 hc1 x0 x1 xs0 xs1 xs2 = k0_pay6 x1 xs2 xs1 xs0 := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero (S := S1x2048) hz2]
  simp only [View.readCov_unit_zero (S := S1x2048) _ hz2, View.readCov_unit_zero (S := S2048x128) _ hz2,
    View.readAt_eq_ld, harg2.read_unread, harg3.read_unread, harg6.read_unread, harg7.read_unread, harg8.read_unread,
    View.ld_unit_zero (S := S1x2048) hz2, View.ld_unit_zero (S := S2048x128) hz2, View.ld_unit_zero (S := S1024x128) hz2]

/-- The second output's block at the last key tile. -/
theorem out0_C_3_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x2048 .f32) (harg4 : arg4.IsWhole) (arg5 : Memref sig .tc .vmem S1x1x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (hc0 : ¬cond0_0 i) (hc1 : cond0_1 i)
    (x0 : Vec F S2048x128 .f32) (x1 : Vec F S1024x128 .f32) (xs0 : Vec F S1x2048 .f32) (xs1 : Vec F S1x2048 .f32) (xs2 : Vec F S2048x128 .bf16) :
    out0_C_3 c i arg2 harg2 arg3 harg3 arg4 harg4 arg5 harg5 arg6 harg6 arg7 harg7 arg8 harg8 hc0 hc1 x0 x1 xs0 xs1 xs2 = k0_pay7 x1 xs2 xs1 := by
  unfold out0_C_3
  rw [View.read_writes_eq_canon _ _ _ (cover0_C_3 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero (S := S1x1x1024) hz3]
  simp only [View.readCov_unit_zero (S := S1x2048) _ hz2, View.readCov_unit_zero (S := S2048x128) _ hz2,
    View.readAt_eq_ld, harg2.read_unread, harg3.read_unread, harg6.read_unread, harg7.read_unread, harg8.read_unread,
    View.ld_unit_zero (S := S1x2048) hz2, View.ld_unit_zero (S := S2048x128) hz2, View.ld_unit_zero (S := S1024x128) hz2]

end Cert.KernelIdeal.Pieces

end
-- ==== Proof.LibMinFold.lean ====
/-
  Folds of `min` as infima, and infima regrouped by blocks.

  A reduction with a `min` body from `⊤` is, whatever the order of the fold, the infimum of the
  entries it visits.  Stated over a complete linear order, the facts here are:

  * `fold_min_top_univ` : a fold of `min` from `⊤` over a whole finite index type is `⨅ i, f i`;
  * `biInf_zero`, `biInf_step`, `biInf_full` : a running minimum kept block by block.  With the
    entries `f : Fin N → α` cut into consecutive blocks of `b`, the running value after `j` blocks
    is `⨅ m, ⨅ (_ : m < b * j), f m`; before the first block it is `⊤`, taking `min` with block
    `j`'s own infimum gives the value after `j + 1` blocks, and once the blocks exhaust `N` it is
    the infimum of all of `f`;
  * `iInf_blocks` : the infimum over blocks of the blocks' infima is the infimum of all entries.
-/
import Idealize.ShloMosaic.PureOps.Ideal.Laws

namespace Cert.LibMinFold

variable {α : Type*} [CompleteLinearOrder α]

/-- A fold of `min` from `⊤` over every index is the infimum of the entries. -/
theorem fold_min_top_univ {ι : Type*} [Fintype ι] (f : ι → α) :
    (Finset.univ : Finset ι).fold min ⊤ f = ⨅ i, f i := by
  refine eq_of_forall_le_iff fun c => ?_
  rw [Finset.le_fold_min, le_iInf_iff]
  simp

/-- Position `b * i + k` of block `i`, entry `k`, lies below `N = a * b`. -/
theorem blk_lt {a b N i k : ℕ} (hN : N = a * b) (hi : i < a) (hk : k < b) : b * i + k < N := by
  subst hN
  calc b * i + k < b * i + b := by omega
    _ = b * (i + 1) := (Nat.mul_succ b i).symm
    _ ≤ b * a := Nat.mul_le_mul_left b hi
    _ = a * b := Nat.mul_comm b a

/-- Before the first block the running minimum is `⊤`: no entry lies below position `0`. -/
theorem biInf_zero {N : ℕ} (b : ℕ) (f : Fin N → α) :
    (⨅ m : Fin N, ⨅ _ : m.val < b * 0, f m) = ⊤ := by
  simp

/-- One block more: the running minimum over the first `j` blocks, `min` the infimum of block `j`,
    is the running minimum over the first `j + 1` blocks. -/
theorem biInf_step {N : ℕ} (b j : ℕ) (hN : b * (j + 1) ≤ N) (f : Fin N → α) :
    min (⨅ m : Fin N, ⨅ _ : m.val < b * j, f m)
        (⨅ k : Fin b, f ⟨b * j + k.val, by have := k.isLt; have hs : b * (j + 1) = b * j + b := Nat.mul_succ b j; omega⟩)
      = ⨅ m : Fin N, ⨅ _ : m.val < b * (j + 1), f m := by
  have hs : b * (j + 1) = b * j + b := Nat.mul_succ b j
  refine eq_of_forall_le_iff fun c => ?_
  simp only [le_min_iff, le_iInf_iff]
  constructor
  · rintro ⟨h1, h2⟩ m hm
    by_cases hlt : m.val < b * j
    · exact h1 m hlt
    · have hk : m.val - b * j < b := by omega
      have := h2 ⟨m.val - b * j, hk⟩
      have e : (⟨b * j + (m.val - b * j), by omega⟩ : Fin N) = m := Fin.ext (by simp only; omega)
      rw [e] at this
      exact this
  · intro h
    exact ⟨fun m hm => h m (by omega), fun k => h _ (by have := k.isLt; simp only; omega)⟩

/-- Once the blocks exhaust the index type the running minimum is the infimum of every entry. -/
theorem biInf_full {N : ℕ} (B : ℕ) (hB : N ≤ B) (f : Fin N → α) :
    (⨅ m : Fin N, ⨅ _ : m.val < B, f m) = ⨅ m, f m :=
  iInf_congr fun m => iInf_pos (lt_of_lt_of_le m.isLt hB)

/-- The infimum over the blocks of each block's infimum is the infimum of all entries. -/
theorem iInf_blocks {a b N : ℕ} (hN : N = a * b) (f : Fin N → α) :
    (⨅ i : Fin a, ⨅ k : Fin b, f ⟨b * i.val + k.val, blk_lt hN i.isLt k.isLt⟩) = ⨅ n, f n := by
  refine eq_of_forall_le_iff fun c => ?_
  simp only [le_iInf_iff]
  constructor
  · intro h n
    have hb : 0 < b := by
      rcases Nat.eq_zero_or_pos b with h0 | h0
      · subst h0; subst hN; exact absurd n.isLt (by simp)
      · exact h0
    have hi : n.val / b < a := by
      apply Nat.div_lt_of_lt_mul
      exact lt_of_lt_of_eq n.isLt (hN.trans (Nat.mul_comm a b))
    have := h ⟨n.val / b, hi⟩ ⟨n.val % b, Nat.mod_lt _ hb⟩
    have e : (⟨b * (n.val / b) + n.val % b, blk_lt hN hi (Nat.mod_lt _ hb)⟩ : Fin N) = n :=
      Fin.ext (Nat.div_add_mod n.val b)
    rw [e] at this
    exact this
  · intro h i k
    exact h _

end Cert.LibMinFold
-- ==== Proof.LibMinReduce.lean ====
/-
  Reductions with a minimum body, read at an index, at the extended reals.

  A reduction with a `min` body that starts from `+∞` computes, at each result index, the infimum of the
  source entries over the reduced axis — whatever order the entries are folded in.  This holds for the
  vector unit's multi-reduction and for the host's one-operand reduce alike.  The general facts are stated
  for any shape and any single reduced axis (`multiReduction_min_single`, `hostReduce_min_single`); the
  rest names the reduced index with the coordinate put back, for the layouts that occur: a matrix reduced
  along its rows or its columns, and a `1 × n × m` array reduced along its last or its middle axis.
-/
import Idealize.ShloMosaic.PureOps.Ideal.Laws
import Idealize.ShloMosaic.Lib.ValueIdx
import proofs.«129263_j59055800320002_2_alg».proof.Proof.LibMinFold

noncomputable section

namespace Idealize.ShloMosaic.ValueIdx

open Idealize.ShloMosaic

/-- The f32 pattern of `+∞` denotes the top of the extended reals. -/
theorem ofBits_inf_f32 : Ideal.ofBits .f32 0x7F800000#32 = (⊤ : EReal) := by simp [Ideal.ofBits, Ideal.ieee]

/-- A multi-reduction with a minimum body over one axis, from `+∞`: the infimum over that axis. -/
theorem multiReduction_min_single {φ : FTy} {s t : Shape} {a : Fin s.rank} (src : FVec Ideal s φ) (acc : BitVec φ.bits)
    (h : s.Reduces [a] t) (hφ : FKind.Formats φ) (hacc : acc = FKind.minimumf.neutral φ hφ)
    (htop : Ideal.ofBits φ acc = (⊤ : EReal)) (j : t.Idx) :
    multiReduction .minimumf [a] t src acc h hφ hacc j = ⨅ k : Fin (s.size a), (src (h.lift j k) : EReal) := by
  rw [multiReduction_minimumf_eq_fold, h.fold_filter_drop_single]
  show (Finset.univ : Finset (Fin (s.size a))).fold min (Ideal.ofBits φ acc) (src ∘ h.lift j) = _
  rw [htop, Cert.LibMinFold.fold_min_top_univ]
  rfl

/-- The host's reduce with a minimum body over one axis, from an initial value `+∞`: the infimum over that axis. -/
theorem hostReduce_min_single {φ : FTy} {s t u : Shape} {a : Fin s.rank} (x : FVec Ideal s φ) (init : u.Idx → Ideal φ)
    (h' : s.ReducesTo [a] t) (h : s.Reduces [a] t) (hu : 0 < u.numel)
    (htop : init (Shape.Idx.first hu) = (⊤ : EReal)) (j : t.Idx) :
    Host.reduce (FloatOps.minimumf (F := Ideal) (φ := φ)) x init h' hu j = ⨅ k : Fin (s.size a), (x (h.lift j k) : EReal) := by
  rw [Host.reduce_eq_fold_single (FloatOps.minimumf (F := Ideal) (φ := φ)) x init h' h hu j]
  show (Finset.univ : Finset (Fin (s.size a))).fold min (init (Shape.Idx.first hu)) (x ∘ h.lift j) = _
  rw [htop, Cert.LibMinFold.fold_min_top_univ]
  rfl

/-! ## A matrix -/

/-- Column `q` of an `a × b` matrix reduced along its rows, with row `k` put back, is `(k, q)`. -/
theorem lift_rows_ix2 {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- Row `p` of an `a × b` matrix reduced along its columns, with column `k` put back, is `(p, k)`. -/
theorem lift_cols_ix2' {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A multi-reduction with a minimum body down the rows of a matrix, at column `q`: the column's infimum. -/
theorem colMin_ix1 {φ : FTy} {a b : ℕ} (src : FVec Ideal (⟨2, ![a, b]⟩ : Shape) φ) (acc : BitVec φ.bits)
    (h : (⟨2, ![a, b]⟩ : Shape).Reduces [0] (⟨1, ![b]⟩ : Shape)) (hφ : FKind.Formats φ)
    (hacc : acc = FKind.minimumf.neutral φ hφ) (htop : Ideal.ofBits φ acc = (⊤ : EReal)) (q : Fin b) :
    multiReduction .minimumf [0] (⟨1, ![b]⟩ : Shape) src acc h hφ hacc (ix1 q) = ⨅ k : Fin a, (src (ix2 k q) : EReal) :=
  (multiReduction_min_single src acc h hφ hacc htop (ix1 q)).trans
    (iInf_congr fun k => congrArg src (lift_rows_ix2 h q k))

/-- A multi-reduction with a minimum body along the columns of a matrix, at row `p`: the row's infimum. -/
theorem rowMin_ix1 {φ : FTy} {a b : ℕ} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.minimumf.neutral φ hφ) (htop : Ideal.ofBits φ acc = (⊤ : EReal)) (p : Fin a) :
    multiReduction .minimumf [1] (⟨1, ![a]⟩ : Shape) src acc h hφ hacc (ix1 p) = ⨅ k : Fin b, (src (ix2 p k) : EReal) :=
  (multiReduction_min_single src acc h hφ hacc htop (ix1 p)).trans
    (iInf_congr fun k => congrArg src (lift_cols_ix2' h p k))

/-- The host's reduce with a minimum body down the rows of a matrix, at column `q`: the column's infimum. -/
theorem hostColMin_ix1 {φ : FTy} {a b : ℕ} (x : FVec Ideal (⟨2, ![a, b]⟩ : Shape) φ) {u : Shape} (init : u.Idx → Ideal φ)
    (h' : (⟨2, ![a, b]⟩ : Shape).ReducesTo [0] (⟨1, ![b]⟩ : Shape)) (h : (⟨2, ![a, b]⟩ : Shape).Reduces [0] (⟨1, ![b]⟩ : Shape))
    (hu : 0 < u.numel) (htop : init (Shape.Idx.first hu) = (⊤ : EReal)) (q : Fin b) :
    Host.reduce (FloatOps.minimumf (F := Ideal) (φ := φ)) x init h' hu (ix1 q) = ⨅ k : Fin a, (x (ix2 k q) : EReal) :=
  (hostReduce_min_single x init h' h hu htop (ix1 q)).trans
    (iInf_congr fun k => congrArg x (lift_rows_ix2 h q k))

/-! ## A `1 × n × m` array -/

/-- Entry `(u, p)` of a `1 × n × m` array reduced along its last axis, with `k` put back, is `(u, p, k)`. -/
theorem lift_last_ix3 {n m : ℕ} (h : (⟨3, ![1, n, m]⟩ : Shape).Reduces [2] (⟨2, ![1, n]⟩ : Shape)) (u : Fin 1) (p : Fin n)
    (k : Fin ((⟨3, ![1, n, m]⟩ : Shape).size 2)) : h.lift (ix2 u p) k = ix3 u p (⟨k.val, k.isLt⟩ : Fin m) := by
  funext c; apply Fin.ext
  fin_cases c <;> rfl

/-- Entry `(u, q)` of a `1 × n × m` array reduced along its middle axis, with `k` put back, is `(u, k, q)`. -/
theorem lift_mid_ix3 {n m : ℕ} (h : (⟨3, ![1, n, m]⟩ : Shape).Reduces [1] (⟨2, ![1, m]⟩ : Shape)) (u : Fin 1) (q : Fin m)
    (k : Fin ((⟨3, ![1, n, m]⟩ : Shape).size 1)) : h.lift (ix2 u q) k = ix3 u (⟨k.val, k.isLt⟩ : Fin n) q := by
  funext c; apply Fin.ext
  fin_cases c <;> rfl

/-- The host's reduce with a minimum body along the last axis of a `1 × n × m` array, at `(u, p)`. -/
theorem hostMin_last_ix2 {φ : FTy} {n m : ℕ} (x : FVec Ideal (⟨3, ![1, n, m]⟩ : Shape) φ) {w : Shape} (init : w.Idx → Ideal φ)
    (h' : (⟨3, ![1, n, m]⟩ : Shape).ReducesTo [2] (⟨2, ![1, n]⟩ : Shape)) (h : (⟨3, ![1, n, m]⟩ : Shape).Reduces [2] (⟨2, ![1, n]⟩ : Shape))
    (hu : 0 < w.numel) (htop : init (Shape.Idx.first hu) = (⊤ : EReal)) (u : Fin 1) (p : Fin n) :
    Host.reduce (FloatOps.minimumf (F := Ideal) (φ := φ)) x init h' hu (ix2 u p) = ⨅ k : Fin m, (x (ix3 u p k) : EReal) :=
  (hostReduce_min_single x init h' h hu htop (ix2 u p)).trans
    (iInf_congr fun k => congrArg x (lift_last_ix3 h u p k))

/-- The host's reduce with a minimum body along the middle axis of a `1 × n × m` array, at `(u, q)`. -/
theorem hostMin_mid_ix2 {φ : FTy} {n m : ℕ} (x : FVec Ideal (⟨3, ![1, n, m]⟩ : Shape) φ) {w : Shape} (init : w.Idx → Ideal φ)
    (h' : (⟨3, ![1, n, m]⟩ : Shape).ReducesTo [1] (⟨2, ![1, m]⟩ : Shape)) (h : (⟨3, ![1, n, m]⟩ : Shape).Reduces [1] (⟨2, ![1, m]⟩ : Shape))
    (hu : 0 < w.numel) (htop : init (Shape.Idx.first hu) = (⊤ : EReal)) (u : Fin 1) (q : Fin m) :
    Host.reduce (FloatOps.minimumf (F := Ideal) (φ := φ)) x init h' hu (ix2 u q) = ⨅ k : Fin n, (x (ix3 u k q) : EReal) :=
  (hostReduce_min_single x init h' h hu htop (ix2 u q)).trans
    (iInf_congr fun k => congrArg x (lift_mid_ix3 h u q k))

end Idealize.ShloMosaic.ValueIdx

end
-- ==== Proof.LibRowReduce.lean ====
/-
  Reductions of an `a × b` array along its columns, read at a row `p`, at the extended reals: the vector unit's
  multi-reduction with an add or a maximum body and the host's one-operand reduce with a maximum body are, at row `p`,
  the finite sum, respectively the fold of `max` from the starting value, over the `b` entries `(p, k)` of that row.
  The reduced index `p` with a column `k` put back is `(p, k)`.
-/
import Idealize.ShloMosaic.PureOps.Ideal.Laws
import Idealize.ShloMosaic.Lib.ValueIdx

noncomputable section

open scoped BigOperators

namespace Idealize.ShloMosaic.ValueIdx

open Idealize.ShloMosaic

/-- The reduced index `p` of an `a × b` array reduced along its columns, with column `k` put back, is `(p, k)`. -/
theorem lift_cols_ix2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A multi-reduction with an add body along the columns, at row `p`: the sum of the row. -/
theorem rowSum_ix1 {φ : FTy} {a b : ℕ} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_cols_ix2 h p k))

/-- A multi-reduction with a maximum body along the columns, at row `p`: the fold of `max` over the row, from the
    accumulator's value. -/
theorem rowMax_ix1 {φ : FTy} {a b : ℕ} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (FloatOps.ofBits φ acc) (fun k => src (ix2 p k)) :=
  (Ideal.multiReduction_maximumf_single src acc h hφ hacc (ix1 p)).trans
    (congrArg ((Finset.univ : Finset (Fin b)).fold max (FloatOps.ofBits φ acc))
      (funext fun k => congrArg src (lift_cols_ix2 h p k)))

/-- The host's reduce with a maximum body along the columns, at row `p`: the fold of `max` over the row, from the
    initial value's one element. -/
theorem hostRowMax_ix1 {φ : FTy} {a b : ℕ} (x : FVec Ideal (⟨2, ![a, b]⟩ : Shape) φ) {u : Shape} (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg ((Finset.univ : Finset (Fin b)).fold max (init (Shape.Idx.first hu)))
      (funext fun k => congrArg x (lift_cols_ix2 h p k)))

end Idealize.ShloMosaic.ValueIdx

end
-- ==== Proof.LibColumnLayout.lean ====
/-
  A column kept as a trailing unit axis, read at coordinates. A row reduction of an `a × b` array gives a length-`a`
  vector; "keepdims" stores it as an `a × 1` array and broadcasts it back over the `b` columns. Read at `(p, c)` the
  result is the vector at `p`, whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.PayloadAt.lean ====
/-
  The body's arithmetic, read entry by entry at the extended reals.

  With `k` a key block (1024 × 128), `qc` the stored copy of the query block (2048 × 128), `a2` the stored
  row of the query block's squared norms and `acc` the running minimum, the body computes

    dist k q   =  (‖key k‖² + a2 q) + ∑_d (key k d · (−2)) · qc q d          (the distance tile, 1024 × 2048)
    acc' q     =  min (acc q) (inf_k dist k q)                               (one step of the running minimum)
    out2 k     =  inf_q dist k q                                             (this tile's row minima)
    a2 q       =  ∑_d query q d · query q d,      qc = query                 (stored at the first key tile)

  A change of float format is the identity here, the product into a zero accumulator is the plain sum over
  the contracted axis, a reduction with an add body is the finite sum and one with a minimum body from `+∞`
  the infimum.
-/
import proofs.«129263_j59055800320002_2_alg».proof.Proof.Gen.KernelIdeal.Skeleton
import proofs.«129263_j59055800320002_2_alg».proof.Proof.LibMinReduce
import proofs.«129263_j59055800320002_2_alg».proof.Proof.LibRowReduce
import proofs.«129263_j59055800320002_2_alg».proof.Proof.LibColumnLayout
import Idealize.ShloMosaic.Lib.ValueLayout
import Idealize.ShloMosaic.Lib.Pipeline.Value

noncomputable section

open scoped BigOperators
open Idealize.ShloMosaic Idealize.ShloMosaic.ValueIdx

namespace Cert.KernelIdeal.PayAt

open Cert.KernelIdeal Cert.KernelIdeal.Gen

/-- The kernel's scale, the f32 pattern of `−2`. -/
abbrev negTwo : EReal := Ideal.ofBits .f32 0xC0000000#32

/-- The squared norm of row `r` of an `a × 128` array. -/
def sqRow {a : ℕ} (x : (⟨2, ![a, 128]⟩ : Shape).Idx → EReal) (r : Fin a) : EReal :=
  ∑ d : Fin 128, x (ix2 r d) * x (ix2 r d)

/-- The distance tile's entry for key row `k` and query row `q`. -/
def distT (kb : (⟨2, ![1024, 128]⟩ : Shape).Idx → EReal) (qb : (⟨2, ![2048, 128]⟩ : Shape).Idx → EReal)
    (a2 : (⟨2, ![1, 2048]⟩ : Shape).Idx → EReal) (k : Fin 1024) (q : Fin 2048) : EReal :=
  (sqRow kb k + a2 (ix2 (0 : Fin 1) q)) + ∑ d : Fin 128, (kb (ix2 k d) * negTwo) * qb (ix2 q d)

/-! ## The block product -/

theorem lhs0 (j : S1024x2048.Idx) (c : dot_S1024x128_S2048x128_S1024x2048_1_1_0_0_n_n.contr.Idx) : (dot_S1024x128_S2048x128_S1024x2048_1_1_0_0_n_n.lhsIdx j c 0).val = (j 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhs1 (j : S1024x2048.Idx) (c : dot_S1024x128_S2048x128_S1024x2048_1_1_0_0_n_n.contr.Idx) : (dot_S1024x128_S2048x128_S1024x2048_1_1_0_0_n_n.lhsIdx j c 1).val = (c ⟨0, by decide⟩).val :=
  dot_S1024x128_S2048x128_S1024x2048_1_1_0_0_n_n.lhsIdx_val_of_single rfl j c
theorem rhs0 (j : S1024x2048.Idx) (c : dot_S1024x128_S2048x128_S1024x2048_1_1_0_0_n_n.contr.Idx) : (dot_S1024x128_S2048x128_S1024x2048_1_1_0_0_n_n.rhsIdx j c 0).val = (j 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhs1 (j : S1024x2048.Idx) (c : dot_S1024x128_S2048x128_S1024x2048_1_1_0_0_n_n.contr.Idx) : (dot_S1024x128_S2048x128_S1024x2048_1_1_0_0_n_n.rhsIdx j c 1).val = (c ⟨0, by decide⟩).val :=
  dot_S1024x128_S2048x128_S1024x2048_1_1_0_0_n_n.rhsIdx_val_of_single rfl j c

/-- The product of a 1024 × 128 block with the transpose of a 2048 × 128 block, into zeros, at `(k, q)`:
    the sum over the 128 shared columns. -/
theorem matmul_at (l : FVec Ideal S1024x128 .bf16) (r : FVec Ideal S2048x128 .bf16) (k : Fin 1024) (q : Fin 2048) :
    matmul dot_S1024x128_S2048x128_S1024x2048_1_1_0_0_n_n none l r (constant (F := Ideal) S1024x2048 .f32 0x00000000#32) (ix2 k q)
      = ∑ d : Fin 128, (l (ix2 k d) : EReal) * r (ix2 q d) := by
  simp only [matmul]
  rw [Ideal.matmul_constant_zero_apply, ← Equiv.sum_comp (contrEquiv1 dot_S1024x128_S2048x128_S1024x2048_1_1_0_0_n_n 128 rfl rfl).symm]
  refine Finset.sum_congr rfl fun d _ => ?_
  have hk := contrEquiv1_symm_val dot_S1024x128_S2048x128_S1024x2048_1_1_0_0_n_n 128 rfl rfl d
  have el : dot_S1024x128_S2048x128_S1024x2048_1_1_0_0_n_n.lhsIdx (ix2 k q) ((contrEquiv1 dot_S1024x128_S2048x128_S1024x2048_1_1_0_0_n_n 128 rfl rfl).symm d) = ix2 k d := funext fun a => Fin.ext (by
    match a with
    | ⟨0, _⟩ => exact lhs0 _ _
    | ⟨1, _⟩ => exact (lhs1 _ _).trans hk)
  have er : dot_S1024x128_S2048x128_S1024x2048_1_1_0_0_n_n.rhsIdx (ix2 k q) ((contrEquiv1 dot_S1024x128_S2048x128_S1024x2048_1_1_0_0_n_n 128 rfl rfl).symm d) = ix2 q d := funext fun a => Fin.ext (by
    match a with
    | ⟨0, _⟩ => exact rhs0 _ _
    | ⟨1, _⟩ => exact (rhs1 _ _).trans hk)
  rw [el, er]

/-! ## The payloads -/

/-- The stored row of squared norms, at query row `q`. -/
theorem pay3_at (v37 : FVec Ideal S2048x128 .f32) (u : Fin 1) (q : Fin 2048) :
    (k0_pay3 (F := Ideal) v37 (ix2 u q) : EReal) = sqRow v37 q := by
  unfold k0_pay3 k0_pay2
  dsimp only
  simp only [shapeCast_self]
  refine (transpose_ix2_apply _ _ u q).trans ?_
  refine (shapeCast_a_a1_apply _ _ q u).trans ?_
  refine (rowSum_ix1 _ _ _ _ _ q).trans ?_
  rfl

/-- The stored copy of the query block is the query block. -/
theorem pay4_at (v37 : FVec Ideal S2048x128 .f32) (y : S2048x128.Idx) :
    (k0_pay4 (F := Ideal) v37 y : EReal) = v37 y := by
  unfold k0_pay4 k0_pay2
  dsimp only
  simp only [shapeCast_self]
  rfl

/-- The distance tile at `(k, q)`. -/
theorem pay5_at (v3 : FVec Ideal S1024x128 .f32) (v11 : FVec Ideal S2048x128 .bf16) (v13 : FVec Ideal S1x2048 .f32)
    (k : Fin 1024) (q : Fin 2048) :
    (k0_pay5 (F := Ideal) v3 v11 v13 (ix2 k q) : EReal) = distT v3 v11 v13 k q := by
  unfold k0_pay5
  dsimp only
  simp only [shapeCast_self]
  show (_ + _) + _ = _
  unfold distT
  refine congrArg₂ (· + ·) (congrArg₂ (· + ·) ?_ ?_) ?_
  · refine (broadcastTo_a1_ab_apply _ _ k q).trans ?_
    refine (shapeCast_a_a1_apply _ _ k (0 : Fin 1)).trans ?_
    refine (rowSum_ix1 _ _ _ _ _ k).trans ?_
    rfl
  · exact broadcastTo_1b_ab_apply _ _ k q
  · refine (matmul_at _ _ k q).trans ?_
    rfl

/-- One step of the running minimum, at query row `q`. -/
theorem pay6_at (v3 : FVec Ideal S1024x128 .f32) (v11 : FVec Ideal S2048x128 .bf16) (v13 : FVec Ideal S1x2048 .f32)
    (v20 : FVec Ideal S1x2048 .f32) (u : Fin 1) (q : Fin 2048) :
    (k0_pay6 (F := Ideal) v3 v11 v13 v20 (ix2 u q) : EReal)
      = min (v20 (ix2 u q)) (⨅ k : Fin 1024, (k0_pay5 (F := Ideal) v3 v11 v13 (ix2 k q) : EReal)) := by
  unfold k0_pay6
  dsimp only
  simp only [shapeCast_self]
  show min _ _ = _
  refine congrArg (min (v20 (ix2 u q))) ?_
  refine (shapeCast_a_1a_apply _ _ u q).trans ?_
  exact colMin_ix1 _ _ _ _ _ ofBits_inf_f32 q

/-- This tile's row minima, at key row `k`. -/
theorem pay7_at (v3 : FVec Ideal S1024x128 .f32) (v11 : FVec Ideal S2048x128 .bf16) (v13 : FVec Ideal S1x2048 .f32)
    (u u' : Fin 1) (k : Fin 1024) :
    (k0_pay7 (F := Ideal) v3 v11 v13 (ix3 u u' k) : EReal)
      = ⨅ q : Fin 2048, (k0_pay5 (F := Ideal) v3 v11 v13 (ix2 k q) : EReal) := by
  unfold k0_pay7
  dsimp only
  refine (shapeCast_ab_1ab_apply _ _ u u' k).trans ?_
  refine (transpose_ix2_apply _ _ u' k).trans ?_
  refine (shapeCast_a_a1_apply _ _ k u').trans ?_
  exact rowMin_ix1 _ _ _ _ _ ofBits_inf_f32 k

/-- The reset value of the running minimum: `+∞` everywhere. -/
theorem pay1_at (y : S1x2048.Idx) : (k0_pay1 (F := Ideal) y : EReal) = ⊤ := by
  unfold k0_pay1
  simp only [shapeCast_self]
  exact ofBits_inf_f32

end Cert.KernelIdeal.PayAt

end
-- ==== Proof.TileStep.lean ====
/-
  One grid point, in closed form.

  Over two 16384 × 128 arrays `A` (the queries) and `B` (the keys), write

    E n m  =  (‖B m‖² + ‖A n‖²) + ∑_d (B m d · (−2)) · A n d

  for the squared distance between query `n` and key `m` as the body spells it.  Query tile `i` holds rows
  `2048 i + q`, key tile `j` rows `1024 j + k`.  After the body has run on key tiles `0 … J − 1` of query
  tile `i` the three carried buffers hold

    qc  =  the query tile itself,      a2 q  =  ‖A (2048 i + q)‖²,
    acc q  =  inf over the keys `m < 1024 J` of `E (2048 i + q) m`,

  and at key tile `j` the second output's block is, at `k`, the infimum over the tile's queries of
  `E (2048 i + q) (1024 j + k)`.  One more key tile takes `acc` from `J` to `J + 1`: the minimum with the
  tile's own column infimum is the infimum over one more block of keys.
-/
import proofs.«129263_j59055800320002_2_alg».proof.Proof.PayloadAt

noncomputable section

open scoped BigOperators
open Idealize.ShloMosaic Idealize.ShloMosaic.ValueIdx

namespace Cert.KernelIdeal.Tile

open Cert.KernelIdeal Cert.KernelIdeal.Gen Cert.KernelIdeal.PayAt

variable (A B : (⟨2, ![16384, 128]⟩ : Shape).Idx → EReal)

/-- The squared distance between query `n` and key `m`, as the body spells it. -/
def E (n m : Fin 16384) : EReal :=
  (sqRow B m + sqRow A n) + ∑ d : Fin 128, (B (ix2 m d) * negTwo) * A (ix2 n d)

/-- Row `q` of query tile `i`. -/
def qrow (i : Fin 8) (q : Fin 2048) : Fin 16384 := ⟨2048 * i.val + q.val, by have := i.isLt; have := q.isLt; omega⟩
/-- Row `k` of key tile `j`. -/
def krow (j : Fin 16) (k : Fin 1024) : Fin 16384 := ⟨1024 * j.val + k.val, by have := j.isLt; have := k.isLt; omega⟩

/-- Query tile `i`. -/
def qcF (i : Fin 8) : (⟨2, ![2048, 128]⟩ : Shape).Idx → EReal :=
  fun y => A (ix2 (qrow i ⟨(y 0).val, idx2_lt0 y⟩) ⟨(y 1).val, idx2_lt1 y⟩)
/-- Key tile `j`. -/
def kcF (j : Fin 16) : (⟨2, ![1024, 128]⟩ : Shape).Idx → EReal :=
  fun y => B (ix2 (krow j ⟨(y 0).val, idx2_lt0 y⟩) ⟨(y 1).val, idx2_lt1 y⟩)
/-- The squared norms of query tile `i`'s rows, as a row. -/
def a2F (i : Fin 8) : (⟨2, ![1, 2048]⟩ : Shape).Idx → EReal :=
  fun y => sqRow A (qrow i ⟨(y 1).val, idx2_lt1 y⟩)
/-- The running minimum of query tile `i` after `J` key tiles. -/
def accF (i : Fin 8) (J : ℕ) : (⟨2, ![1, 2048]⟩ : Shape).Idx → EReal :=
  fun y => ⨅ m : Fin 16384, ⨅ _ : m.val < 1024 * J, E A B (qrow i ⟨(y 1).val, idx2_lt1 y⟩) m
/-- The second output's block at query tile `i`, key tile `j`. -/
def out3F (i : Fin 8) (j : Fin 16) : (⟨3, ![1, 1, 1024]⟩ : Shape).Idx → EReal :=
  fun y => ⨅ q : Fin 2048, E A B (qrow i q) (krow j ⟨(y 2).val, (y 2).isLt⟩)

theorem qcF_ix2 (i : Fin 8) (q : Fin 2048) (d : Fin 128) : qcF A i (ix2 q d) = A (ix2 (qrow i q) d) := rfl
theorem kcF_ix2 (j : Fin 16) (k : Fin 1024) (d : Fin 128) : kcF B j (ix2 k d) = B (ix2 (krow j k) d) := rfl
theorem a2F_ix2 (i : Fin 8) (u : Fin 1) (q : Fin 2048) : a2F A i (ix2 u q) = sqRow A (qrow i q) := rfl

/-- The distance tile of query tile `i` against key tile `j` is `E` at the tiles' rows. -/
theorem dist_eq (i : Fin 8) (j : Fin 16) (k : Fin 1024) (q : Fin 2048) :
    distT (kcF B j) (qcF A i) (a2F A i) k q = E A B (qrow i q) (krow j k) := by
  unfold distT E sqRow
  simp only [kcF_ix2, qcF_ix2, a2F_ix2]
  rfl

/-- One more key tile: the running minimum after `J` tiles, stepped with tile `J`, is that after `J + 1`. -/
theorem step_acc (i : Fin 8) (J : ℕ) (hJ : J < 16) :
    (k0_pay6 (F := Ideal) (kcF B ⟨J, hJ⟩) (qcF A i) (a2F A i) (accF A B i J) : (⟨2, ![1, 2048]⟩ : Shape).Idx → EReal)
      = accF A B i (J + 1) := by
  funext y
  obtain ⟨u, q, rfl⟩ : ∃ (u : Fin 1) (q : Fin 2048), y = ix2 u q := ⟨y 0, y 1, eq_ix2 y⟩
  rw [pay6_at]
  simp only [pay5_at, dist_eq]
  exact Cert.LibMinFold.biInf_step 1024 J (by omega) (E A B (qrow i q))

/-- The second output's block at `(i, j)`: the tile's row infima. -/
theorem step_out3 (i : Fin 8) (j : Fin 16) :
    (k0_pay7 (F := Ideal) (kcF B j) (qcF A i) (a2F A i) : (⟨3, ![1, 1, 1024]⟩ : Shape).Idx → EReal) = out3F A B i j := by
  funext y
  obtain ⟨u, u', k, rfl⟩ : ∃ (u u' : Fin 1) (k : Fin 1024), y = ix3 u u' k := ⟨y 0, y 1, y 2, eq_ix3 y⟩
  rw [pay7_at]
  simp only [pay5_at, dist_eq]
  rfl

/-- At the first key tile the stored squared norms are those of the query tile, -/
theorem first_a2 (i : Fin 8) : (k0_pay3 (F := Ideal) (qcF A i) : (⟨2, ![1, 2048]⟩ : Shape).Idx → EReal) = a2F A i := by
  funext y
  obtain ⟨u, q, rfl⟩ : ∃ (u : Fin 1) (q : Fin 2048), y = ix2 u q := ⟨y 0, y 1, eq_ix2 y⟩
  rw [pay3_at]
  rfl

/-- the stored copy is the query tile, -/
theorem first_qc (i : Fin 8) : (k0_pay4 (F := Ideal) (qcF A i) : (⟨2, ![2048, 128]⟩ : Shape).Idx → EReal) = qcF A i :=
  funext fun y => pay4_at _ y

/-- and the reset running minimum is the one after no key tile. -/
theorem first_acc (i : Fin 8) : (k0_pay1 (F := Ideal) : (⟨2, ![1, 2048]⟩ : Shape).Idx → EReal) = accF A B i 0 := by
  funext y
  rw [pay1_at]
  exact (Cert.LibMinFold.biInf_zero 1024 _).symm

end Cert.KernelIdeal.Tile

end
-- ==== Proof.Invariant.lean ====
/-
  What the buffers hold after each grid point.

  Grid point `t` works on query tile `t / 16` and key tile `t % 16`.  The blocks the two input windows hand
  the body are those tiles of the two 16384 × 128 arrays the region reads.  By induction on the point,
  after point `t` the carried buffers hold the query tile, its rows' squared norms, and the infimum of the
  squared distances to the keys of tiles `0 … t % 16`; the second output's block is that point's row
  infima; and at the last key tile of a query tile the first output's block is the infimum over all keys.
-/
import proofs.«129263_j59055800320002_2_alg».proof.Proof.KernelPieces
import proofs.«129263_j59055800320002_2_alg».proof.Proof.TileStep

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Pieces Cert.KernelIdeal.Tile

variable (m : (ℓ : Loc nD τ sig) → Buf (Elt Ideal) ℓ)

/-- The queries and the keys as the region finds them: 16384 × 128 each. -/
abbrev QA (c : Dev nD) : (⟨2, ![16384, 128]⟩ : Shape).Idx → EReal := V m c main_v0
abbrev KB (c : Dev nD) : (⟨2, ![16384, 128]⟩ : Shape).Idx → EReal := V m c main_v1

theorem lt128 {n : ℕ} (h : n < cfg0.N) : n < 128 := lt_of_lt_of_eq h N_0

/-- The query tile and the key tile of point `n`. -/
def iOf (n : ℕ) (h : n < cfg0.N) : Fin 8 := ⟨n / 16, by have := lt128 h; omega⟩
def jOf (n : ℕ) : Fin 16 := ⟨n % 16, Nat.mod_lt _ (by norm_num)⟩

theorem idx0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx1 : ∀ t : Fin cfg0.N, win0_1.index t 0 = t.val % 16 ∧ win0_1.index t 1 = 0 :=
  (by decide +kernel : ∀ t : Fin grid0.N, win0_1.index t 0 = t.val % 16 ∧ win0_1.index t 1 = 0)

/-- The first window's block at point `t` is query tile `t / 16`. -/
theorem iblk0_eq (c : Dev nD) (t : Fin cfg0.N) :
    (iblk m c 0 t : (⟨2, ![2048, 128]⟩ : Shape).Idx → EReal) = qcF (QA m c) (iOf t.val t.isLt) := by
  funext y
  unfold iblk qcF
  rw [View.read_apply]
  show V m c main_v0 _ = V m c main_v0 _
  congr 1
  funext a
  apply Fin.ext
  match a with
  | ⟨0, _⟩ => show win0_0.index t 0 * 2048 + 1 * (y 0).val = 2048 * (t.val / 16) + (y 0).val; rw [(idx0 t).1]; omega
  | ⟨1, _⟩ => show win0_0.index t 1 * 128 + 1 * (y 1).val = (y 1).val; rw [(idx0 t).2]; omega

/-- The second window's block at point `t` is key tile `t % 16`. -/
theorem iblk1_eq (c : Dev nD) (t : Fin cfg0.N) :
    (iblk m c 1 t : (⟨2, ![1024, 128]⟩ : Shape).Idx → EReal) = kcF (KB m c) (jOf t.val) := by
  funext y
  unfold iblk kcF
  rw [View.read_apply]
  show V m c main_v1 _ = V m c main_v1 _
  congr 1
  funext a
  apply Fin.ext
  match a with
  | ⟨0, _⟩ => show win0_1.index t 0 * 1024 + 1 * (y 0).val = 1024 * (t.val % 16) + (y 0).val; rw [(idx1 t).1]; omega
  | ⟨1, _⟩ => show win0_1.index t 1 * 128 + 1 * (y 1).val = (y 1).val; rw [(idx1 t).2]; omega

/-- THE INVARIANT of the carried buffers: after point `n` the running minimum has seen the key tiles
    `0 … n % 16` of query tile `n / 16`, whose squared norms and copy the other two hold. -/
theorem scratch_inv (c : Dev nD) : ∀ (n : ℕ) (h : n < cfg0.N),
    ((outsAt0 m c n h).2.2.1 : (⟨2, ![1, 2048]⟩ : Shape).Idx → EReal) = accF (QA m c) (KB m c) (iOf n h) (n % 16 + 1)
    ∧ ((outsAt0 m c n h).2.2.2.1 : (⟨2, ![1, 2048]⟩ : Shape).Idx → EReal) = a2F (QA m c) (iOf n h)
    ∧ ((outsAt0 m c n h).2.2.2.2 : (⟨2, ![2048, 128]⟩ : Shape).Idx → EReal) = qcF (QA m c) (iOf n h) := by
  intro n
  induction n with
  | zero =>
    intro h
    rw [outsAt0_A m c ⟨0, h⟩ rfl (by show ¬(0 % 16 = 15); norm_num)]
    dsimp only
    rw [sout0_A_0_eq, sout0_A_1_eq, sout0_A_2_eq, iblk0_eq m c ⟨0, h⟩, iblk1_eq m c ⟨0, h⟩]
    refine ⟨?_, first_a2 _ _, first_qc _ _⟩
    rw [first_a2, first_qc, first_acc (QA m c) (KB m c)]
    exact step_acc (QA m c) (KB m c) _ 0 (by norm_num)
  | succ n ih =>
    intro h
    have hN := lt128 h
    obtain ⟨ih0, ih1, ih2⟩ := ih (Nat.lt_of_succ_lt h)
    by_cases h0 : (n + 1) % 16 = 0
    · have h1 : ¬(n + 1) % 16 = 15 := by omega
      rw [outsAt0_A m c ⟨n + 1, h⟩ h0 h1]
      dsimp only
      rw [sout0_A_0_eq, sout0_A_1_eq, sout0_A_2_eq, iblk0_eq m c ⟨n + 1, h⟩, iblk1_eq m c ⟨n + 1, h⟩]
      refine ⟨?_, first_a2 _ _, first_qc _ _⟩
      rw [first_a2, first_qc, first_acc (QA m c) (KB m c)]
      have hj : jOf (n + 1) = ⟨0, by norm_num⟩ := Fin.ext h0
      rw [hj, h0]
      exact step_acc (QA m c) (KB m c) _ 0 (by norm_num)
    · have hi : iOf n (Nat.lt_of_succ_lt h) = iOf (n + 1) h := Fin.ext (by show n / 16 = (n + 1) / 16; omega)
      have hs : n % 16 + 1 = (n + 1) % 16 := by omega
      have hlt : (n + 1) % 16 < 16 := Nat.mod_lt _ (by norm_num)
      rw [hi, hs] at ih0
      rw [hi] at ih1 ih2
      by_cases h1 : (n + 1) % 16 = 15
      · rw [outsAt0_C m c ⟨n + 1, h⟩ h0 h1]
        dsimp only
        rw [sout0_C_0_eq]
        unfold sout0_C_1 sout0_C_2
        refine ⟨?_, ih1, ih2⟩
        show k0_pay6 (iblk m c 1 ⟨n + 1, h⟩) (outsAt0 m c n _).2.2.2.2 (outsAt0 m c n _).2.2.2.1 (outsAt0 m c n _).2.2.1 = _
        rw [ih0, ih1, ih2, iblk1_eq m c ⟨n + 1, h⟩]
        exact step_acc (QA m c) (KB m c) _ ((n + 1) % 16) hlt
      · rw [outsAt0_B m c ⟨n + 1, h⟩ h0 h1]
        dsimp only
        rw [sout0_B_0_eq]
        unfold sout0_B_1 sout0_B_2
        refine ⟨?_, ih1, ih2⟩
        show k0_pay6 (iblk m c 1 ⟨n + 1, h⟩) (outsAt0 m c n _).2.2.2.2 (outsAt0 m c n _).2.2.2.1 (outsAt0 m c n _).2.2.1 = _
        rw [ih0, ih1, ih2, iblk1_eq m c ⟨n + 1, h⟩]
        exact step_acc (QA m c) (KB m c) _ ((n + 1) % 16) hlt

/-- The carried buffers BEFORE a point that is not the first of its query tile: the running minimum has
    seen the key tiles before this one. -/
theorem scratch_before (c : Dev nD) (t : Fin cfg0.N) (h0 : ¬t.val % 16 = 0) :
    ((outsAt0 m c (t.val - 1) (Nat.lt_of_le_of_lt (Nat.sub_le _ _) t.isLt)).2.2.1 : (⟨2, ![1, 2048]⟩ : Shape).Idx → EReal)
        = accF (QA m c) (KB m c) (iOf t.val t.isLt) (t.val % 16)
    ∧ ((outsAt0 m c (t.val - 1) (Nat.lt_of_le_of_lt (Nat.sub_le _ _) t.isLt)).2.2.2.1 : (⟨2, ![1, 2048]⟩ : Shape).Idx → EReal)
        = a2F (QA m c) (iOf t.val t.isLt)
    ∧ ((outsAt0 m c (t.val - 1) (Nat.lt_of_le_of_lt (Nat.sub_le _ _) t.isLt)).2.2.2.2 : (⟨2, ![2048, 128]⟩ : Shape).Idx → EReal)
        = qcF (QA m c) (iOf t.val t.isLt) := by
  have hN := lt128 t.isLt
  obtain ⟨s0, s1, s2⟩ := scratch_inv m c (t.val - 1) (Nat.lt_of_le_of_lt (Nat.sub_le _ _) t.isLt)
  have hi : iOf (t.val - 1) (Nat.lt_of_le_of_lt (Nat.sub_le _ _) t.isLt) = iOf t.val t.isLt :=
    Fin.ext (by show (t.val - 1) / 16 = t.val / 16; omega)
  have hs : (t.val - 1) % 16 + 1 = t.val % 16 := by omega
  rw [hi, hs] at s0
  rw [hi] at s1 s2
  exact ⟨s0, s1, s2⟩

/-- The second output's block after point `t`: the row infima of query tile `t / 16` against key tile `t % 16`. -/
theorem out3_eq (c : Dev nD) (t : Fin cfg0.N) :
    ((outsAt0 m c t.val t.isLt).2.1 : (⟨3, ![1, 1, 1024]⟩ : Shape).Idx → EReal)
      = out3F (QA m c) (KB m c) (iOf t.val t.isLt) (jOf t.val) := by
  have hN := lt128 t.isLt
  by_cases h0 : t.val % 16 = 0
  · have h1 : ¬t.val % 16 = 15 := by omega
    rw [outsAt0_A m c t h0 h1]
    dsimp only
    rw [out0_A_3_eq, iblk0_eq m c t, iblk1_eq m c t, first_a2, first_qc]
    exact step_out3 (QA m c) (KB m c) _ _
  · obtain ⟨s0, s1, s2⟩ := scratch_before m c t h0
    by_cases h1 : t.val % 16 = 15
    · rw [outsAt0_C m c t h0 h1]
      dsimp only
      rw [out0_C_3_eq, s1, s2, iblk1_eq m c t]
      exact step_out3 (QA m c) (KB m c) _ _
    · rw [outsAt0_B m c t h0 h1]
      dsimp only
      rw [out0_B_3_eq, s1, s2, iblk1_eq m c t]
      exact step_out3 (QA m c) (KB m c) _ _

/-- The first output's block after the last key tile of a query tile: the infimum over all sixteen tiles. -/
theorem out2_eq (c : Dev nD) (t : Fin cfg0.N) (h1 : t.val % 16 = 15) :
    ((outsAt0 m c t.val t.isLt).1 : (⟨2, ![1, 2048]⟩ : Shape).Idx → EReal)
      = accF (QA m c) (KB m c) (iOf t.val t.isLt) 16 := by
  have hN := lt128 t.isLt
  have h0 : ¬t.val % 16 = 0 := by omega
  obtain ⟨s0, s1, s2⟩ := scratch_before m c t h0
  rw [outsAt0_C m c t h0 h1]
  dsimp only
  rw [out0_C_2_eq, s0, s1, s2, iblk1_eq m c t]
  have := step_acc (QA m c) (KB m c) (iOf t.val t.isLt) (t.val % 16) (Nat.mod_lt _ (by norm_num))
  exact this.trans (congrArg (accF (QA m c) (KB m c) (iOf t.val t.isLt)) (by omega))

end Cert.KernelIdeal.Inv

end
-- ==== Proof.LossSpec.lean ====
/-
  The quantity both programs compute, from a 16384 × 16384 matrix `D` of squared distances:

    loss D  =  mean_n (inf_m D n m)  +  mean_m (inf_n D n m),

  each mean spelled as the programs spell it: the f32 zero plus the sum, divided by the f32 word of 16384.
-/
import Idealize.ShloMosaic.PureOps.Ideal.Laws

noncomputable section

open scoped BigOperators
open Idealize.ShloMosaic

namespace Cert.LossSpec

/-- The mean of 16384 extended reals, as a host sum from the zero word divided by the word of 16384. -/
def mean (f : Fin 16384 → EReal) : EReal :=
  Ideal.div (Ideal.ofBits .f32 0x00000000#32 + ∑ n : Fin 16384, f n) (Ideal.ofBits .f32 0x46800000#32)

/-- The two-sided nearest-neighbour loss of a matrix of squared distances. -/
def loss (D : Fin 16384 → Fin 16384 → EReal) : EReal :=
  mean (fun n => ⨅ m : Fin 16384, D n m) + mean (fun m => ⨅ n : Fin 16384, D n m)

end Cert.LossSpec

end
-- ==== Proof.KernelArrays.lean ====
/-
  The kernel's result, as a function of the two arrays the region reads.

  Blocks to arrays.  The first output's block `(0, i)` is written back once, after the last key tile of query
  tile `i`, and holds for each of the tile's queries the infimum of its squared distances to all keys; the
  eight blocks, one per query tile, tile the 1 × 16384 array.  The second output's block `(i, 0, j)` is
  written back at every point and holds, for each key of tile `j`, the infimum over the queries of tile `i`;
  the 128 blocks tile the 8 × 1 × 16384 array.

  The lines after the region drop the unit axes, take the minimum over the eight query tiles — which makes
  the second array the infimum over ALL queries —, and add the two means.
-/
import proofs.«129263_j59055800320002_2_alg».proof.Proof.Invariant
import proofs.«129263_j59055800320002_2_alg».proof.Proof.LossSpec
import Idealize.ShloMosaic.Lib.StableHlo.Run
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Tile Cert.KernelIdeal.Inv Cert.LossSpec

variable (m : (ℓ : Loc nD τ sig) → Buf (Elt Ideal) ℓ) (ρ : Dev nD → PrngReg)

/-! ## The first output: per query, the infimum over all keys -/

/-- What the 1 × 16384 array ends holding. -/
def G1 (A B : (⟨2, ![16384, 128]⟩ : Shape).Idx → EReal) : (⟨2, ![1, 16384]⟩ : Shape).Idx → EReal :=
  fun y => ⨅ k : Fin 16384, E A B ⟨(y 1).val, idx2_lt1 y⟩ k

theorem idxw2 : ∀ t : Fin cfg0.N, win0_2.index t 0 = 0 ∧ win0_2.index t 1 = t.val / 16 :=
  (by decide +kernel : ∀ t : Fin grid0.N, win0_2.index t 0 = 0 ∧ win0_2.index t 1 = t.val / 16)

/-- What a write-back of the first output writes is the block of `G1`. -/
theorem flushed2_eq (c : Dev nD) (t : Fin cfg0.N) (hf : (cfg0.win 2).flush t = true) :
    (dats m 0 c).flushed 2 t = ((cfg0.win 2).blk t).view.read (Elt Ideal) (G1 (QA m c) (KB m c)) := by
  have h1 := (flush0_2 t).mp hf
  show (cfg0.win 2).cut (grid0.coords t) ((dats m 0 c).after 2 t) = _
  rw [after0_2, out2_eq m c t h1]
  funext y
  show accF (QA m c) (KB m c) (iOf t.val t.isLt) 16 y = G1 (QA m c) (KB m c) (((cfg0.win 2).blk t).view.emb y)
  unfold accF G1
  rw [Cert.LibMinFold.biInf_full (1024 * 16) (by norm_num)]
  refine iInf_congr fun k => congrArg (fun n => E (QA m c) (KB m c) n k) (Fin.ext ?_)
  show 2048 * (t.val / 16) + (y 1).val = win0_2.index t 1 * 2048 + 1 * (y 1).val
  rw [(idxw2 t).2]; omega

/-- Every entry of the 1 × 16384 array lies in the block written after the last key tile of its query tile. -/
theorem cover2 (i : (⟨2, ![1, 16384]⟩ : Shape).Idx) :
    ∃ t : Fin cfg0.N, (cfg0.win 2).flush t = true ∧ i ∈ ((cfg0.win 2).blk t).view.set := by
  have h0 : (i 0).val < 1 := idx2_lt0 i
  have h1 : (i 1).val < 16384 := idx2_lt1 i
  have hlt : 16 * ((i 1).val / 2048) + 15 < 128 := by omega
  let t : Fin cfg0.N := ⟨16 * ((i 1).val / 2048) + 15, lt_of_lt_of_eq hlt N_0.symm⟩
  have ht : t.val = 16 * ((i 1).val / 2048) + 15 := rfl
  refine ⟨t, (flush0_2 t).mpr (by rw [ht]; omega), ?_⟩
  show i ∈ ((View.whole main_v2_0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [(idxw2 t).1]; omega
  | ⟨1, _⟩ =>
    show win0_2.index t 1 * 2048 ≤ (i 1).val ∧ (i 1).val < win0_2.index t 1 * 2048 + 2048
    rw [(idxw2 t).2, ht]; omega

/-- The 1 × 16384 array after the run. -/
theorem final2 (c : Dev nD) : (dats m 0 c).arrAt 2 cfg0.N = G1 (QA m c) (KB m c) :=
  (dats m 0 c).arrAt_eq_of_cover 2 (G1 (QA m c) (KB m c)) (fun t hf => flushed2_eq m c t hf) (cover2 )

/-! ## The second output: per query tile and key, the infimum over the tile's queries -/

/-- What the 8 × 1 × 16384 array ends holding. -/
def G2 (A B : (⟨2, ![16384, 128]⟩ : Shape).Idx → EReal) : (⟨3, ![8, 1, 16384]⟩ : Shape).Idx → EReal :=
  fun y => ⨅ q : Fin 2048, E A B (qrow ⟨(y 0).val, (y 0).isLt⟩ q) ⟨(y 2).val, (y 2).isLt⟩

theorem idxw3 : ∀ t : Fin cfg0.N, win0_3.index t 0 = t.val / 16 ∧ win0_3.index t 1 = 0 ∧ win0_3.index t 2 = t.val % 16 :=
  (by decide +kernel : ∀ t : Fin grid0.N, win0_3.index t 0 = t.val / 16 ∧ win0_3.index t 1 = 0 ∧ win0_3.index t 2 = t.val % 16)

/-- What a write-back of the second output writes is the block of `G2`. -/
theorem flushed3_eq (c : Dev nD) (t : Fin cfg0.N) :
    (dats m 0 c).flushed 3 t = ((cfg0.win 3).blk t).view.read (Elt Ideal) (G2 (QA m c) (KB m c)) := by
  show (cfg0.win 3).cut (grid0.coords t) ((dats m 0 c).after 3 t) = _
  rw [after0_3, out3_eq m c t]
  funext y
  show out3F (QA m c) (KB m c) (iOf t.val t.isLt) (jOf t.val) y = G2 (QA m c) (KB m c) (((cfg0.win 3).blk t).view.emb y)
  unfold out3F G2
  have hy0 : (y 0).val < 1 := (y 0).isLt
  have e0 : iOf t.val t.isLt = ⟨((((cfg0.win 3).blk t).view.emb y) 0).val, ((((cfg0.win 3).blk t).view.emb y) 0).isLt⟩ :=
    Fin.ext (by
      show t.val / 16 = win0_3.index t 0 * 1 + 1 * (y 0).val
      rw [(idxw3 t).1]; omega)
  have e2 : krow (jOf t.val) ⟨(y 2).val, (y 2).isLt⟩ = ⟨((((cfg0.win 3).blk t).view.emb y) 2).val, ((((cfg0.win 3).blk t).view.emb y) 2).isLt⟩ :=
    Fin.ext (by
      show 1024 * (t.val % 16) + (y 2).val = win0_3.index t 2 * 1024 + 1 * (y 2).val
      rw [(idxw3 t).2.2]; omega)
  rw [e0, e2]

/-- Every entry of the 8 × 1 × 16384 array lies in the block of its query tile and its key's tile. -/
theorem cover3 (i : (⟨3, ![8, 1, 16384]⟩ : Shape).Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 16384 := (i 2).isLt
  have hlt : 16 * (i 0).val + (i 2).val / 1024 < 128 := by omega
  let t : Fin cfg0.N := ⟨16 * (i 0).val + (i 2).val / 1024, lt_of_lt_of_eq hlt N_0.symm⟩
  have ht : t.val = 16 * (i 0).val + (i 2).val / 1024 := rfl
  refine ⟨t, flush0_3 t, ?_⟩
  show i ∈ ((View.whole main_v2_1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [(idxw3 t).1, ht]; omega
  | ⟨1, _⟩ =>
    show win0_3.index t 1 * 1 ≤ (i 1).val ∧ (i 1).val < win0_3.index t 1 * 1 + 1
    rw [(idxw3 t).2.1]; omega
  | ⟨2, _⟩ =>
    show win0_3.index t 2 * 1024 ≤ (i 2).val ∧ (i 2).val < win0_3.index t 2 * 1024 + 1024
    rw [(idxw3 t).2.2, ht]; omega

/-- The 8 × 1 × 16384 array after the run. -/
theorem final3 (c : Dev nD) : (dats m 0 c).arrAt 3 cfg0.N = G2 (QA m c) (KB m c) :=
  (dats m 0 c).arrAt_eq_of_cover 3 (G2 (QA m c) (KB m c)) (fun t _ => flushed3_eq m c t) (cover3 )

end Cert.KernelIdeal.Arrays

end
-- ==== Proof.KernelTail.lean ====
/-
  The lines after the region, and the kernel's run with its result named.

  After the region @main drops the unit axis of each output array, takes the minimum over the eight query
  tiles of the second one — the infimum over the tiles of each tile's infimum is the infimum over all
  queries —, sums each 16384-vector from the zero word, divides by the word of 16384 and adds.  So the
  result is the loss of the matrix `E` of squared distances as the body spells them.  Before the region the
  two arguments are only re-laid from 1 × 16384 × 128 to 16384 × 128.
-/
import proofs.«129263_j59055800320002_2_alg».proof.Proof.KernelArrays

noncomputable section

open scoped BigOperators
open Idealize.ShloMosaic Idealize.ShloMosaic.TcCoe Idealize.SL.Sem Idealize.ShloMosaic.ValueIdx

namespace Cert.KernelIdeal.Tail

open Cert.KernelIdeal Cert.KernelIdeal.Gen Cert.KernelIdeal.Tile Cert.KernelIdeal.Inv Cert.KernelIdeal.Arrays Cert.LossSpec

/-- An 8 × 1 × 16384 array with its unit axis dropped reads, at `(i, k)`, the operand at `(i, 0, k)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (k : Fin b) :
    shapeCast ⟨2, ![a, b]⟩ x h (ix2 i k) = x (ix3 i (0 : Fin 1) k) :=
  shapeCast_apply x h _ _ (by
    rw [Shape.rowMajor_val_three, Shape.rowMajor_val_two]
    show (i.val * 1 + 0) * b + k.val = i.val * b + k.val
    rw [Nat.mul_one, Nat.add_zero])

/-- The indices of a length-`n` vector are its `n` coordinates. -/
def idxEquiv1 {n : ℕ} : Fin n ≃ (⟨1, ![n]⟩ : Shape).Idx where
  toFun := ix1
  invFun := fun i => i 0
  left_inv := fun _ => rfl
  right_inv := fun i => (eq_ix1 i).symm

/-- The host's sum of a 16384-vector from the zero word, at its one index. -/
theorem hostSum_vec (x : FVec Ideal S16384 .f32) (hs : S16384.ReducesTo [0] S_) (hu : 0 < S_.numel) (z : S_.Idx) :
    (Host.reduceAdd x (constant (F := Ideal) S_ .f32 0x00000000#32) hs hu z : EReal)
      = Ideal.ofBits .f32 0x00000000#32 + ∑ n : Fin 16384, (x (ix1 n) : EReal) := by
  simp only [Host.reduceAdd, Ideal.hostReduceAdd_def]
  rw [Ideal.hostReduceAdd_total hs (fun b => b.elim0)]
  exact congrArg₂ (· + ·) rfl (Equiv.sum_comp (idxEquiv1 (n := 16384)) (fun i => (x i : EReal))).symm

/-- The lines after the region, read: the mean of the first array plus the mean of the second array's
    minimum over its leading axis. -/
theorem tail_pure (g1 : FVec Ideal S1x16384 .f32) (g2 : FVec Ideal S8x1x16384 .f32)
    (hc1 : S1x16384.ShapeCasts S16384) (hc2 : S8x1x16384.ShapeCasts S8x16384)
    (hr : S8x16384.ReducesTo [0] S16384) (hs : S16384.ReducesTo [0] S_) (hu : 0 < S_.numel) :
    addf (Host.divf (Host.reduceAdd (shapeCast S16384 g1 hc1) (constant (F := Ideal) S_ .f32 0x00000000#32) hs hu)
            (constant (F := Ideal) S_ .f32 0x46800000#32))
         (Host.divf (Host.reduceAdd (Host.reduce FloatOps.minimumf (shapeCast S8x16384 g2 hc2)
              (constant (F := Ideal) S_ .f32 0x7F800000#32) hr hu) (constant (F := Ideal) S_ .f32 0x00000000#32) hs hu)
            (constant (F := Ideal) S_ .f32 0x46800000#32))
      = fun _ => mean (fun n => g1 (ix2 (0 : Fin 1) n)) + mean (fun k => ⨅ i : Fin 8, (g2 (ix3 i (0 : Fin 1) k) : EReal)) := by
  funext z
  simp only [addf, Host.divf, Ideal.hostDivf_def, Ideal.addf_def]
  rw [hostSum_vec, hostSum_vec]
  unfold mean
  refine congrArg₂ (· + ·)
    (congrArg₂ Ideal.div (congrArg₂ (· + ·) rfl (Finset.sum_congr rfl fun n _ => ?_)) rfl)
    (congrArg₂ Ideal.div (congrArg₂ (· + ·) rfl (Finset.sum_congr rfl fun k _ => ?_)) rfl)
  · exact shapeCast_1a_a_apply g1 hc1 n
  · refine (hostColMin_ix1 _ _ hr (by decide) hu ofBits_inf_f32 k).trans ?_
    exact iInf_congr fun i => shapeCast_a1b_ab_apply g2 hc2 i k

variable (m : (ℓ : Loc nD τ sig) → Buf (Elt Ideal) ℓ) (ρ : Dev nD → PrngReg)

/-- THE KERNEL'S RESULT: the loss of the body's squared distances between the rows of the two arrays
    the region reads. -/
theorem result_eq (c : Dev nD) :
    Pipeline.afterTail₀ cfgs (dats m) 0 (V0 m) [hostOps1] c main_v10 = fun _ => loss (E (QA m c) (KB m c)) := by
  have w2 : Pipeline.withArrays (cfgs 0).spec c (V0 m c) (fun w => (dats m 0 c).arrAt w (cfgs 0).N) (Proc.devRef .tc main_v2_0)
      = G1 (QA m c) (KB m c) :=
    (Pipeline.withArrays_arr spec0 launch0.win.arr_inj c (V0 m c) (fun w => (dats m 0 c).arrAt w cfg0.N) 2).trans (final2 m c)
  have w3 : Pipeline.withArrays (cfgs 0).spec c (V0 m c) (fun w => (dats m 0 c).arrAt w (cfgs 0).N) (Proc.devRef .tc main_v2_1)
      = G2 (QA m c) (KB m c) :=
    (Pipeline.withArrays_arr spec0 launch0.win.arr_inj c (V0 m c) (fun w => (dats m 0 c).arrAt w cfg0.N) 3).trans (final3 m c)
  unfold Pipeline.afterTail₀
  show StableHlo.after hostOps1 _ (Proc.devRef .tc main_v10) = _
  after_results
  rw [w2, w3]
  refine (tail_pure (G1 (QA m c) (KB m c)) (G2 (QA m c) (KB m c)) shapeCasts_S1x16384_S16384 shapeCasts_S8x1x16384_S8x16384
    reducesTo_S8x16384_S16384_d0 reducesTo_S16384_S_d0 h_S_).trans ?_
  funext z
  unfold loss
  refine congrArg₂ (· + ·) (congrArg mean (funext fun n => ?_)) (congrArg mean (funext fun k => ?_))
  · rfl
  · unfold G2 qrow
    exact Cert.LibMinFold.iInf_blocks (a := 8) (b := 2048) (N := 16384) (by norm_num) (fun n => E (QA m c) (KB m c) n k)

/-- The queries as the region finds them are the first argument, re-laid. -/
theorem QA_at (c : Dev nD) (n : Fin 16384) (d : Fin 128) :
    QA m c (ix2 n d) = m ((c : Thread nD τ).loc main_arg0) (ix3 (0 : Fin 1) n d) := by
  have e : (V m c main_v0 : (⟨2, ![16384, 128]⟩ : Shape).Idx → EReal)
      = shapeCast S16384x128 (m ((c : Thread nD τ).loc main_arg0)) shapeCasts_S1x16384x128_S16384x128 := by
    show StableHlo.after hostOps0 (fun b => m (c, b)) (Proc.devRef .tc main_v0) = _
    after_results
    rfl
  show V m c main_v0 (ix2 n d) = _
  rw [e]
  exact shapeCast_1ab_ab_apply _ _ n d

/-- The keys as the region finds them are the second argument, re-laid. -/
theorem KB_at (c : Dev nD) (n : Fin 16384) (d : Fin 128) :
    KB m c (ix2 n d) = m ((c : Thread nD τ).loc main_arg1) (ix3 (0 : Fin 1) n d) := by
  have e : (V m c main_v1 : (⟨2, ![16384, 128]⟩ : Shape).Idx → EReal)
      = shapeCast S16384x128 (m ((c : Thread nD τ).loc main_arg1)) shapeCasts_S1x16384x128_S16384x128 := by
    show StableHlo.after hostOps0 (fun b => m (c, b)) (Proc.devRef .tc main_v1) = _
    after_results
    rfl
  show V m c main_v1 (ix2 n d) = _
  rw [e]
  exact shapeCast_1ab_ab_apply _ _ n d

/-- THE KERNEL'S RUN, read: every weakly fair execution terminates with the result at the loss of the
    body's squared distances and the arguments unchanged. -/
theorem run : θ_run defs (onTc (τ := τ) (main (F := Ideal))) ⟨m, fun _ => 0, ρ⟩ fun r => ∀ c : Dev nD,
      r.2.mem ((c.tc : Thread nD τ).loc main_v10) = (fun _ => loss (E (QA m c) (KB m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.RefSide.lean ====
/-
  The reference, read entry by entry at the extended reals.

  With `X`, `Y` the two 1 × 16384 × 128 arguments, the reference forms

    Dref n m  =  ((0 + ∑_d X n d · X n d) + (0 + ∑_d Y m d · Y m d))  −  2 · ∑_d X n d · Y m d,

  takes the minimum of each row and of each column from `+∞`, and adds the two means.  Each of its
  operations is read at an index by the generated read-back lemmas; the two reductions with a minimum
  body are the infima along the last and the middle axis.
-/
import proofs.«129263_j59055800320002_2_alg».proof.Proof.Gen.ReferenceIdeal.Read
import proofs.«129263_j59055800320002_2_alg».proof.Proof.LibMinReduce
import proofs.«129263_j59055800320002_2_alg».proof.Proof.LossSpec

noncomputable section

open scoped BigOperators
open Idealize.ShloMosaic Idealize.ShloMosaic.ValueIdx

namespace Cert.ReferenceIdeal.RefValue

open Cert.ReferenceIdeal Cert.ReferenceIdeal.Read Cert.LossSpec

/-- The reference's scale, the f32 pattern of `2`. -/
abbrev two : EReal := Ideal.ofBits .f32 0x40000000#32

/-- The squared norm of row `n`, as the host sums it from the zero word. -/
def sq3 (X : (⟨3, ![1, 16384, 128]⟩ : Shape).Idx → EReal) (n : Fin 16384) : EReal :=
  Ideal.ofBits .f32 0x00000000#32 + ∑ d : Fin 128, X (ix3 (0 : Fin 1) n d) * X (ix3 (0 : Fin 1) n d)

/-- The reference's squared distance between row `n` of `X` and row `m` of `Y`. -/
def Dref (X Y : (⟨3, ![1, 16384, 128]⟩ : Shape).Idx → EReal) (n m : Fin 16384) : EReal :=
  (sq3 X n + sq3 Y m) - two * ∑ d : Fin 128, X (ix3 (0 : Fin 1) n d) * Y (ix3 (0 : Fin 1) m d)

/-- The matrix of squared distances at `(n, m)`. -/
theorem v12_at (X Y : (⟨S1x16384x128, .f32⟩ : BufTy).Contents (Elt Ideal)) (u : Fin 1) (n k : Fin 16384) :
    (val_main_v12 (F := Ideal) X Y (ix3 u n k) : EReal) = Dref X Y n k := by
  obtain rfl : u = 0 := Subsingleton.elim _ _
  have e1 : ∀ d : Fin 128, idx_main_v1 (idx_main_v5 (idx_main_v7 (ix3 (0 : Fin 1) n k))) d = ix3 (0 : Fin 1) n d :=
    fun d => funext fun a => Fin.ext (by match a with | ⟨0, _⟩ => rfl | ⟨1, _⟩ => rfl | ⟨2, _⟩ => rfl)
  have e3 : ∀ d : Fin 128, idx_main_v3 (idx_main_v6 (idx_main_v8 (ix3 (0 : Fin 1) n k))) d = ix3 (0 : Fin 1) k d :=
    fun d => funext fun a => Fin.ext (by match a with | ⟨0, _⟩ => rfl | ⟨1, _⟩ => rfl | ⟨2, _⟩ => rfl)
  have el : ∀ d : Fin 128, lidx_main_v4 (ix3 (0 : Fin 1) n k) d = ix3 (0 : Fin 1) n d :=
    fun d => funext fun a => Fin.ext (by match a with | ⟨0, _⟩ => rfl | ⟨1, _⟩ => rfl | ⟨2, _⟩ => rfl)
  have er : ∀ d : Fin 128, ridx_main_v4 (ix3 (0 : Fin 1) n k) d = ix3 (0 : Fin 1) k d :=
    fun d => funext fun a => Fin.ext (by match a with | ⟨0, _⟩ => rfl | ⟨1, _⟩ => rfl | ⟨2, _⟩ => rfl)
  rw [val_main_v12_apply, val_main_v9_apply, val_main_v11_apply, val_main_v7_apply, val_main_v5_apply, val_main_v1_apply,
    val_main_v8_apply, val_main_v6_apply, val_main_v3_apply, val_main_v10_apply, val_main_v4_apply]
  simp only [e1, e3, el, er, val_main_v0_apply, val_main_v2_apply]
  rfl

/-- Each row's minimum, from `+∞`: the infimum over the keys. -/
theorem v13_at (X Y : (⟨S1x16384x128, .f32⟩ : BufTy).Contents (Elt Ideal)) (u : Fin 1) (n : Fin 16384) :
    (val_main_v13 (F := Ideal) X Y (ix2 u n) : EReal) = ⨅ k : Fin 16384, Dref X Y n k := by
  unfold val_main_v13
  refine (hostMin_last_ix2 _ _ _ (by decide) _ ofBits_inf_f32 u n).trans ?_
  exact iInf_congr fun k => v12_at X Y u n k

/-- Each column's minimum, from `+∞`: the infimum over the queries. -/
theorem v14_at (X Y : (⟨S1x16384x128, .f32⟩ : BufTy).Contents (Elt Ideal)) (u : Fin 1) (k : Fin 16384) :
    (val_main_v14 (F := Ideal) X Y (ix2 u k) : EReal) = ⨅ n : Fin 16384, Dref X Y n k := by
  unfold val_main_v14
  refine (hostMin_mid_ix2 _ _ _ (by decide) _ ofBits_inf_f32 u k).trans ?_
  exact iInf_congr fun n => v12_at X Y u n k

/-- THE REFERENCE'S RESULT: the loss of its matrix of squared distances. -/
theorem ref_value (X Y : (⟨S1x16384x128, .f32⟩ : BufTy).Contents (Elt Ideal)) :
    val_main_v19 (F := Ideal) X Y = fun _ => loss (Dref X Y) := by
  funext z
  rw [val_main_v19_apply, val_main_v16_apply, val_main_v18_apply, val_main_v15_apply, val_main_v17_apply]
  unfold loss mean
  refine congrArg₂ (· + ·) (congrArg₂ Ideal.div (congrArg₂ (· + ·) rfl ?_) rfl)
    (congrArg₂ Ideal.div (congrArg₂ (· + ·) rfl ?_) rfl)
  · rw [sum_idx2, Fin.sum_univ_one]
    exact Finset.sum_congr rfl fun n _ => v13_at X Y 0 n
  · rw [sum_idx2, Fin.sum_univ_one]
    exact Finset.sum_congr rfl fun k _ => v14_at X Y 0 k

end Cert.ReferenceIdeal.RefValue

end
-- ==== Proof.Bridge.lean ====
/-
  The law that joins the two sides.

  The body folds the scale into the key rows, `∑_d (y_d · (−2)) · x_d`, and adds; the reference multiplies the
  inner product by `2` and subtracts, and sums each squared norm from the zero word.  On real entries these
  are one number: `∑ (y·(−2))·x = −2·∑ x·y` is distributivity over a finite sum, which is where finiteness is
  used — over the extended reals it fails at the infinities.
-/
import proofs.«129263_j59055800320002_2_alg».proof.Proof.TileStep
import proofs.«129263_j59055800320002_2_alg».proof.Proof.RefSide

noncomputable section

open scoped BigOperators
open Idealize.ShloMosaic Idealize.ShloMosaic.ValueIdx

namespace Cert.Bridge

open Cert.KernelIdeal.Tile Cert.KernelIdeal.PayAt Cert.ReferenceIdeal.RefValue Cert.LossSpec

theorem negTwo_eq : Ideal.ofBits .f32 0xC0000000#32 = ((-2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two spellings of a squared distance agree on real entries. -/
theorem dist_law (x y : Fin 128 → ℝ) :
    ((∑ d, (y d : EReal) * (y d : EReal)) + ∑ d, (x d : EReal) * (x d : EReal)) + ∑ d, ((y d : EReal) * ((-2 : ℝ) : EReal)) * (x d : EReal)
      = (((0 : EReal) + ∑ d, (x d : EReal) * (x d : EReal)) + ((0 : EReal) + ∑ d, (y d : EReal) * (y d : EReal)))
          - ((2 : ℝ) : EReal) * ∑ d, (x d : EReal) * (y d : EReal) := by
  have hr : ((∑ d, y d * y d) + ∑ d, x d * x d) + ∑ d, (y d * (-2)) * x d
      = ((0 + ∑ d, x d * x d) + (0 + ∑ d, y d * y d)) - 2 * ∑ d, x d * y d := by
    have e : ∑ d, (y d * (-2)) * x d = -2 * ∑ d, x d * y d := by
      rw [Finset.mul_sum]; exact Finset.sum_congr rfl fun d _ => by ring
    rw [e]; ring
  have := congrArg (fun r : ℝ => (r : EReal)) hr
  simp only [EReal.coe_add, EReal.coe_sub, EReal.coe_mul, coe_sum, EReal.coe_zero] at this
  exact this

/-- On real entries the body's squared distance is the reference's. -/
theorem E_eq_Dref (A B : (⟨2, ![16384, 128]⟩ : Shape).Idx → EReal) (X Y : (⟨3, ![1, 16384, 128]⟩ : Shape).Idx → EReal)
    (hA : ∀ n d, A (ix2 n d) = X (ix3 (0 : Fin 1) n d)) (hB : ∀ n d, B (ix2 n d) = Y (ix3 (0 : Fin 1) n d))
    (hX : ∀ i, ∃ r : ℝ, X i = (r : EReal)) (hY : ∀ i, ∃ r : ℝ, Y i = (r : EReal)) (n k : Fin 16384) :
    E A B n k = Dref X Y n k := by
  choose xr hxr using hX
  choose yr hyr using hY
  unfold E Dref sqRow sq3
  simp only [hA, hB, hxr, hyr, negTwo, two, negTwo_eq, two_eq, Ideal.ofBits_zero_f32]
  exact dist_law (fun d => xr (ix3 (0 : Fin 1) n d)) (fun d => yr (ix3 (0 : Fin 1) k d))

/-- So the two losses are one. -/
theorem loss_eq (A B : (⟨2, ![16384, 128]⟩ : Shape).Idx → EReal) (X Y : (⟨3, ![1, 16384, 128]⟩ : Shape).Idx → EReal)
    (hA : ∀ n d, A (ix2 n d) = X (ix3 (0 : Fin 1) n d)) (hB : ∀ n d, B (ix2 n d) = Y (ix3 (0 : Fin 1) n d))
    (hX : ∀ i, ∃ r : ℝ, X i = (r : EReal)) (hY : ∀ i, ∃ r : ℝ, Y i = (r : EReal)) :
    loss (E A B) = loss (Dref X Y) :=
  congrArg loss (funext fun n => funext fun k => E_eq_Dref A B X Y hA hB hX hY n k)

end Cert.Bridge

end
-- ==== Proof.Finite.lean ====
/-
  The precondition, decoded: every entry of both arguments is a real number.

  `finite_inputs` is the conjunction of two `all`s of `|x| < +∞`.  An `all` that is true is true at every
  index, and an extended real whose absolute value is below `+∞` is neither infinity.
-/
import proofs.«129263_j59055800320002_2_alg».proof.Pre_finite_inputs
import proofs.«129263_j59055800320002_2_alg».proof.Proof.LibMinReduce
import Idealize.ShloMosaic.Lib.ReduceAll
import Idealize.ShloMosaic.Lib.Affine

noncomputable section

open Idealize.ShloMosaic Idealize.ShloMosaic.ValueIdx

namespace Cert.Finite

/-- An extended real with `|x| < +∞`, as the comparison word says it, is a real. -/
theorem real_of_abs_lt (x : EReal)
    (h : Ideal.cmp .olt (max x (-x)) (Ideal.ofBits .f32 0x7F800000#32) = 1#1) : ∃ r : ℝ, x = (r : EReal) := by
  rw [ofBits_inf_f32] at h
  have hlt : max x (-x) < ⊤ := by
    by_contra hn
    simp [Ideal.cmp, hn] at h
  induction x using EReal.rec with
  | bot => simp at hlt
  | coe r => exact ⟨r, rfl⟩
  | top => simp at hlt

variable [Cert.Pre_finite_inputs.Facts]

/-- Where the precondition holds, every entry of both arguments is a real. -/
theorem real_of_pre (X Y : FVec Ideal Cert.Pre_finite_inputs.S1x16384x128 .f32)
    (h : Cert.Pre_finite_inputs.fn (F := Ideal) X Y = fun _ => 1#1) :
    (∀ i, ∃ r : ℝ, (X i : EReal) = (r : EReal)) ∧ (∀ i, ∃ r : ℝ, (Y i : EReal) = (r : EReal)) := by
  have h0 := congrFun h ix0
  dsimp only [Cert.Pre_finite_inputs.fn] at h0
  obtain ⟨hx, hy⟩ := IntOp.andi_eq_one.mp h0
  haveI : Subsingleton Cert.Pre_finite_inputs.S_.Idx := ⟨fun a b => funext fun d => d.elim0⟩
  exact ⟨fun i => real_of_abs_lt _ (Host.reduce_andi_all _ _ _ _ _ hx i),
    fun i => real_of_abs_lt _ (Host.reduce_andi_all _ _ _ _ _ hy i)⟩

end Cert.Finite

end
-- ==== Proof.lean ====
/-
  Two-sided nearest-neighbour (Chamfer) loss of two clouds of 16384 points in 128 dimensions.

  Both programs form the matrix of squared distances by the expansion ‖a − b‖² = ‖a‖² + ‖b‖² − 2 a·b,
  take for every point of each cloud the minimum over the other cloud, and add the two means.

  The kernel walks an 8 × 16 grid of (query tile, key tile) pairs.  For one pair it forms the 1024 × 2048 tile
  of squared distances ONCE, with the factor −2 folded into the key rows before the product, and reads both
  reductions off it: the minimum over the tile's keys updates a running minimum carried across the sixteen
  key tiles of a query tile (reset to +∞ at the first, copied out at the last), and the minimum over the
  tile's queries is written to the pair's own slot of an 8 × 1 × 16384 array, whose minimum over the eight
  query tiles is taken after the region.  The reference forms the whole 16384 × 16384 matrix and reduces it
  along each axis.

  At the extended reals a minimum from +∞, in any order and any grouping, is an infimum, so both programs
  compute, of their own matrix `D`, the same functional  mean_n inf_m D n m + mean_m inf_n D n m.  The
  two matrices differ only in how an entry is spelled — (‖b‖² + ‖a‖²) + ∑ (b·(−2))·a  against
  (‖a‖² + ‖b‖²) − 2·∑ a·b — and agree wherever every coordinate is a real number, which is what the
  precondition says; the step that needs it is distributing −2 over the sum.

  The ideal pass rewrote nothing, so the idealized kernel is the kernel's own text read at the extended
  reals and there is nothing to preserve.
-/
import proofs.«129263_j59055800320002_2_alg».proof.Defs
import proofs.«129263_j59055800320002_2_alg».proof.Proof.Gen.Kernel
import proofs.«129263_j59055800320002_2_alg».proof.Proof.Gen.Kernel.Skeleton
import proofs.«129263_j59055800320002_2_alg».proof.Proof.Gen.Kernel.Launch
import proofs.«129263_j59055800320002_2_alg».proof.Proof.Gen.Kernel.Points
import proofs.«129263_j59055800320002_2_alg».proof.Proof.Gen.Kernel.Frame
import proofs.«129263_j59055800320002_2_alg».proof.Proof.Gen.KernelIdeal
import proofs.«129263_j59055800320002_2_alg».proof.Proof.Gen.KernelIdeal.Skeleton
import proofs.«129263_j59055800320002_2_alg».proof.Proof.Gen.KernelIdeal.Launch
import proofs.«129263_j59055800320002_2_alg».proof.Proof.Gen.KernelIdeal.Points
import proofs.«129263_j59055800320002_2_alg».proof.Proof.Gen.KernelIdeal.Frame
import proofs.«129263_j59055800320002_2_alg».proof.Proof.Gen.ReferenceIdeal
import proofs.«129263_j59055800320002_2_alg».proof.Proof.Gen.ReferenceIdeal.Run
import proofs.«129263_j59055800320002_2_alg».proof.Proof.Gen.ReferenceIdeal.Read
import proofs.«129263_j59055800320002_2_alg».proof.Proof.Gen.Pre_finite_inputs
import proofs.«129263_j59055800320002_2_alg».proof.Proof.KernelTail
import proofs.«129263_j59055800320002_2_alg».proof.Proof.RefSide
import proofs.«129263_j59055800320002_2_alg».proof.Proof.Bridge
import proofs.«129263_j59055800320002_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the two clouds, whose coordinates are all real, both programs end with the
    loss of the reference's matrix of squared distances: the reference by reading its line of operations,
    the kernel because its own matrix is entrywise the reference's on real coordinates. -/
theorem algebraic : Cert.algebraic_KernelIdeal_ReferenceIdeal := by
  intro m ρ m' ρ' hpre hagree
  refine ⟨fun c => fun _ => Cert.LossSpec.loss (Cert.ReferenceIdeal.RefValue.Dref
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.Tail.run m ρ)
    obtain ⟨hX, hY⟩ := Cert.Finite.real_of_pre _ _ (hpre c)
    exact congrArg (fun v => fun _ => v)
      (Cert.Bridge.loss_eq _ _ _ _ (Cert.KernelIdeal.Tail.QA_at m c) (Cert.KernelIdeal.Tail.KB_at m c) hX hY)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v19_eq _ _).trans (Cert.ReferenceIdeal.RefValue.ref_value _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
